-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x20 : Shape := ⟨2, ![128, 20]⟩
abbrev S20 : Shape := ⟨1, ![20]⟩
abbrev S20x10 : Shape := ⟨2, ![20, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x20 : S_.BroadcastsInDim S128x20 (![] : Fin 0 → Fin S128x20.rank)
  reducesTo_S128x20_S_d0_1 : S128x20.ReducesTo [0, 1] S_
  bcast_S_S20 : S_.BroadcastsInDim S20 (![] : Fin 0 → Fin S20.rank)
  reducesTo_S20_S_d0 : S20.ReducesTo [0] S_
  bcast_S_S20x10 : S_.BroadcastsInDim S20x10 (![] : Fin 0 → Fin S20x10.rank)
  reducesTo_S20x10_S_d0_1 : S20x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S20x10 1) : IVec S_ 1 :=
  let main_c_5 : IVec S_ 1 := constantI S_ 1 1#1
  let main_v17 : IVec S_ 1 := (fun x v => Host.reduce IntOp.andi x v reducesTo_S20x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x20 .f32) (main_arg3 : FVec F S20 .f32) (main_arg4 : FVec F S20x10 .f32) (main_arg5 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x20 .f32 := Host.absf main_arg2
  let main_cst_0 : FVec F S_ .f32 := constant S_ .f32 0x7F800000#32
  let main_v5 : FVec F S128x20 .f32 := broadcastInDim S128x20 ![] bcast_S_S128x20 main_cst_0
  let main_v6 : IVec S128x20 1 := cmpf .olt main_v4 main_v5
  let main_c_1 : IVec S_ 1 := constantI S_ 1 1#1
  let main_v7 : IVec S_ 1 := (fun x v => Host.reduce IntOp.andi x v reducesTo_S128x20_S_d0_1 h_S_) main_v6 main_c_1
  let main_v8 : IVec S_ 1 := andi main_v3 main_v7
  let main_v9 : FVec F S20 .f32 := Host.absf main_arg3
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S20x10 .f32 := Host.absf main_arg4
  let main_cst_4 : FVec F S_ .f32 := constant S_ .f32 0x7F800000#32
  let main_v15 : FVec F S20x10 .f32 := broadcastInDim S20x10 ![] bcast_S_S20x10 main_cst_4
  let main_v16 : IVec S20x10 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x20 : Shape := ⟨2, ![128, 20]⟩
abbrev S20 : Shape := ⟨1, ![20]⟩
abbrev S20x10 : Shape := ⟨2, ![20, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x20 : Shape := ⟨2, ![100000, 20]⟩
abbrev S10000x128 : Shape := ⟨2, ![10000, 128]⟩
abbrev S10000x20 : Shape := ⟨2, ![10000, 20]⟩
abbrev S3300000x20 : Shape := ⟨2, ![3300000, 20]⟩
abbrev S1x20 : Shape := ⟨2, ![1, 20]⟩
abbrev S100000x10 : Shape := ⟨2, ![100000, 10]⟩
abbrev S10000x10 : Shape := ⟨2, ![10000, 10]⟩
abbrev S3300000x10 : Shape := ⟨2, ![3300000, 10]⟩
abbrev S1x10 : Shape := ⟨2, ![1, 10]⟩
abbrev S10000 : Shape := ⟨1, ![10000]⟩
abbrev S10000x1 : Shape := ⟨2, ![10000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x20, .f32⟩
  | .hbm, ⟨3, _⟩ => ⟨S20, .f32⟩
  | .hbm, ⟨4, _⟩ => ⟨S20x10, .f32⟩
  | .hbm, ⟨5, _⟩ => ⟨S10, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x20, .f32⟩
  | .hbm, ⟨47, _⟩ => ⟨S3300000x1, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x20, .f32⟩
  | .hbm, ⟨57, _⟩ => ⟨S3300000x20, .f32⟩
  | .hbm, ⟨58, _⟩ => ⟨S3300000x20, .f32⟩
  | .hbm, ⟨59, _⟩ => ⟨S_, .f32⟩
  | .hbm, ⟨60, _⟩ => ⟨S100000x20, .f32⟩
  | .hbm, ⟨61, _⟩ => ⟨S3300000x1, .i32⟩
  | .hbm, ⟨62, _⟩ => ⟨S100000x20, .f32⟩
  | .hbm, ⟨63, _⟩ => ⟨S1x20, .f32⟩
  | .hbm, ⟨64, _⟩ => ⟨S100000x10, .f32⟩
  | .hbm, ⟨65, _⟩ => ⟨S3300000x1, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x10, .f32⟩
  | .hbm, ⟨75, _⟩ => ⟨S3300000x10, .f32⟩
  | .hbm, ⟨76, _⟩ => ⟨S3300000x10, .f32⟩
  | .hbm, ⟨77, _⟩ => ⟨S_, .f32⟩
  | .hbm, ⟨78, _⟩ => ⟨S100000x10, .f32⟩
  | .hbm, ⟨79, _⟩ => ⟨S3300000x1, .i32⟩
  | .hbm, ⟨80, _⟩ => ⟨S100000x10, .f32⟩
  | .hbm, ⟨81, _⟩ => ⟨S1x10, .f32⟩
  | .hbm, ⟨82, _⟩ => ⟨S100000x10, .f32⟩
  | .local _ .vmem, ⟨0, _⟩ => ⟨S10000x128, .f32⟩
  | .local _ .vmem, ⟨1, _⟩ => ⟨S10000x128, .f32⟩
  | .local _ .vmem, ⟨2, _⟩ => ⟨S128x20, .f32⟩
  | .local _ .vmem, ⟨3, _⟩ => ⟨S10000x20, .f32⟩
  | .local _ .vmem, ⟨4, _⟩ => ⟨S10000x20, .f32⟩
  | .local _ .vmem, ⟨5, _⟩ => ⟨S10000x20, .f32⟩
  | .local _ .vmem, ⟨6, _⟩ => ⟨S10000x20, .f32⟩
  | .local _ .vmem, ⟨7, _⟩ => ⟨S1x20, .f32⟩
  | .local _ .vmem, ⟨8, _⟩ => ⟨S20x10, .f32⟩
  | .local _ .vmem, ⟨9, _⟩ => ⟨S10000x10, .f32⟩
  | .local _ .vmem, ⟨10, _⟩ => ⟨S10000x10, .f32⟩
  | .local _ .vmem, ⟨11, _⟩ => ⟨S10000x10, .f32⟩
  | .local _ .vmem, ⟨12, _⟩ => ⟨S10000x10, .f32⟩
  | .local _ .vmem, ⟨13, _⟩ => ⟨S1x10, .f32⟩
  | .local _ .vmem, ⟨14, _⟩ => ⟨S10000x10, .f32⟩
  | .local _ .vmem, ⟨15, _⟩ => ⟨S10000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x20 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S20x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x20_S128x20_0_0 : ∀ a, (![0, 0] : Fin 2 → Nat) a + S128x20.size a ≤ S128x20.size a
  h_S128x20 : 0 < S128x20.numel
  inb_S10000x20_S10000x20_0_0 : ∀ a, (![0, 0] : Fin 2 → Nat) a + S10000x20.size a ≤ S10000x20.size a
  h_S10000x20 : 0 < S10000x20.numel
  bcast_S3300000x1_S3300000x20_0_1 : S3300000x1.BroadcastsInDim S3300000x20 (![0, 1] : Fin 2 → Fin S3300000x20.rank)
  bcast_S_S100000x20 : S_.BroadcastsInDim S100000x20 (![] : Fin 0 → Fin S100000x20.rank)
  shapeCasts_S20_S1x20 : S20.ShapeCasts S1x20
  shapeCasts_S10000x20_S10000x20 : S10000x20.ShapeCasts S10000x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S10000x20 : S1x20.Broadcasts S10000x20
  inb_S20x10_S20x10_0_0 : ∀ a, (![0, 0] : Fin 2 → Nat) a + S20x10.size a ≤ S20x10.size a
  h_S20x10 : 0 < S20x10.numel
  inb_S10000x10_S10000x10_0_0 : ∀ a, (![0, 0] : Fin 2 → Nat) a + S10000x10.size a ≤ S10000x10.size a
  h_S10000x10 : 0 < S10000x10.numel
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  shapeCasts_S10_S1x10 : S10.ShapeCasts S1x10
  shapeCasts_S10000x10_S10000x10 : S10000x10.ShapeCasts S10000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  reduces_S10000x10_S10000 : S10000x10.Reduces [1] S10000
  shapeCasts_S10000_S10000x1 : S10000.ShapeCasts S10000x1
  broadcasts_S10000x1_S10000x10 : S10000x1.Broadcasts S10000x10
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x20_S10000x20_1_0_0_1_n_n_wf : DotDims.WF S10000x128 S128x20 S10000x20 [1] [0] [0] [1] [] []
  gather_S100000x20_S3300000x1_S3300000x20_1_0_n_n_0_1_120_wf : GatherDims.WF S100000x20 S3300000x1 S3300000x20 [1] [0] [] [0] [] 1 ![1, 20]
  scatter_S100000x20_S3300000x1_S3300000x20_1_0_0_1_wf : ScatterDims.WF S100000x20 S3300000x1 S3300000x20 [1] [0] [0] 1
  dot_S10000x20_S20x10_S10000x10_1_0_0_1_n_n_wf : DotDims.WF S10000x20 S20x10 S10000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x20.size a ≤ S128x20.size a
  hwx0_1 : ∀ i : grid0.Coords, EltTy.bits .f32 = 32 ∨ (Rect.block (s := S128x20) S128x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x20.size a ≤ S100000x20.size a
  hwx0_2 : ∀ i : grid0.Coords, EltTy.bits .f32 = 32 ∨ (Rect.block (s := S100000x20) S10000x20.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x20.size a ≤ S100000x20.size a
  hwx1_0 : ∀ i : grid1.Coords, EltTy.bits .f32 = 32 ∨ (Rect.block (s := S100000x20) S10000x20.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x20.size a ≤ S1x20.size a
  hwx1_1 : ∀ i : grid1.Coords, EltTy.bits .f32 = 32 ∨ (Rect.block (s := S1x20) S1x20.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S20x10.size a ≤ S20x10.size a
  hwx1_2 : ∀ i : grid1.Coords, EltTy.bits .f32 = 32 ∨ (Rect.block (s := S20x10) S20x10.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x10.size a ≤ S100000x10.size a
  hwx1_3 : ∀ i : grid1.Coords, EltTy.bits .f32 = 32 ∨ (Rect.block (s := S100000x10) S10000x10.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x10.size a ≤ S100000x10.size a
  hwx2_0 : ∀ i : grid2.Coords, EltTy.bits .f32 = 32 ∨ (Rect.block (s := S100000x10) S10000x10.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x10.size a ≤ S1x10.size a
  hwx2_1 : ∀ i : grid2.Coords, EltTy.bits .f32 = 32 ∨ (Rect.block (s := S1x10) S1x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x10.size a ≤ S100000x10.size a
  hwx2_2 : ∀ i : grid2.Coords, EltTy.bits .f32 = 32 ∨ (Rect.block (s := S100000x10) S10000x10.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x20_S10000x20_1_0_0_1_n_n : DotDims S10000x128 S128x20 S10000x20 where
  lhsContracting := [1]
  rhsContracting := [0]
  lhsNonContracting := [0]
  rhsNonContracting := [1]
  lhsBatch := []
  rhsBatch := []
  wf := dot_S10000x128_S128x20_S10000x20_1_0_0_1_n_n_wf
def gather_S100000x20_S3300000x1_S3300000x20_1_0_n_n_0_1_120 : GatherDims S100000x20 S3300000x1 S3300000x20 where
  offsetDims := [1]
  collapsedSliceDims := [0]
  operandBatchingDims := []
  startIndicesBatchingDims := []
  startIndexMap := [0]
  indexVectorDim := 1
  sliceSizes := ![1, 20]
  wf := gather_S100000x20_S3300000x1_S3300000x20_1_0_n_n_0_1_120_wf
def scatter_S100000x20_S3300000x1_S3300000x20_1_0_0_1 : ScatterDims S100000x20 S3300000x1 S3300000x20 where
  updateWindowDims := [1]
  insertedWindowDims := [0]
  scatterDimsToOperandDims := [0]
  indexVectorDim := 1
  wf := scatter_S100000x20_S3300000x1_S3300000x20_1_0_0_1_wf
def dot_S10000x20_S20x10_S10000x10_1_0_0_1_n_n : DotDims S10000x20 S20x10 S10000x10 where
  lhsContracting := [1]
  rhsContracting := [0]
  lhsNonContracting := [0]
  rhsNonContracting := [1]
  lhsBatch := []
  rhsBatch := []
  wf := dot_S10000x20_S20x10_S10000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x20.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x20.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S20x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x10.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x20 : Shape := ⟨2, ![128, 20]⟩
abbrev S20 : Shape := ⟨1, ![20]⟩
abbrev S20x10 : Shape := ⟨2, ![20, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x20 : Shape := ⟨2, ![100000, 20]⟩
abbrev S3300000x20 : Shape := ⟨2, ![3300000, 20]⟩
abbrev S1x20 : Shape := ⟨2, ![1, 20]⟩
abbrev S100000x10 : Shape := ⟨2, ![100000, 10]⟩
abbrev S3300000x10 : Shape := ⟨2, ![3300000, 10]⟩
abbrev S1x10 : Shape := ⟨2, ![1, 10]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x20, .f32⟩
  | .hbm, ⟨3, _⟩ => ⟨S20, .f32⟩
  | .hbm, ⟨4, _⟩ => ⟨S20x10, .f32⟩
  | .hbm, ⟨5, _⟩ => ⟨S10, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x20, .f32⟩
  | .hbm, ⟨47, _⟩ => ⟨S3300000x1, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x20, .f32⟩
  | .hbm, ⟨57, _⟩ => ⟨S3300000x20, .f32⟩
  | .hbm, ⟨58, _⟩ => ⟨S3300000x20, .f32⟩
  | .hbm, ⟨59, _⟩ => ⟨S_, .f32⟩
  | .hbm, ⟨60, _⟩ => ⟨S100000x20, .f32⟩
  | .hbm, ⟨61, _⟩ => ⟨S3300000x1, .i32⟩
  | .hbm, ⟨62, _⟩ => ⟨S100000x20, .f32⟩
  | .hbm, ⟨63, _⟩ => ⟨S1x20, .f32⟩
  | .hbm, ⟨64, _⟩ => ⟨S100000x20, .f32⟩
  | .hbm, ⟨65, _⟩ => ⟨S100000x20, .f32⟩
  | .hbm, ⟨66, _⟩ => ⟨S_, .f32⟩
  | .hbm, ⟨67, _⟩ => ⟨S100000x20, .f32⟩
  | .hbm, ⟨68, _⟩ => ⟨S100000x20, .f32⟩
  | .hbm, ⟨69, _⟩ => ⟨S100000x10, .f32⟩
  | .hbm, ⟨70, _⟩ => ⟨S3300000x1, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x10, .f32⟩
  | .hbm, ⟨80, _⟩ => ⟨S3300000x10, .f32⟩
  | .hbm, ⟨81, _⟩ => ⟨S3300000x10, .f32⟩
  | .hbm, ⟨82, _⟩ => ⟨S_, .f32⟩
  | .hbm, ⟨83, _⟩ => ⟨S100000x10, .f32⟩
  | .hbm, ⟨84, _⟩ => ⟨S3300000x1, .i32⟩
  | .hbm, ⟨85, _⟩ => ⟨S100000x10, .f32⟩
  | .hbm, ⟨86, _⟩ => ⟨S1x10, .f32⟩
  | .hbm, ⟨87, _⟩ => ⟨S100000x10, .f32⟩
  | .hbm, ⟨88, _⟩ => ⟨S100000x10, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x10, .f32⟩
  | .hbm, ⟨96, _⟩ => ⟨S100000x10, .f32⟩
  | .hbm, ⟨97, _⟩ => ⟨S100000x10, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x10, .f32⟩
  | .hbm, ⟨103, _⟩ => ⟨S100000x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x20_0_1 : S3300000x1.BroadcastsInDim S3300000x20 (![0, 1] : Fin 2 → Fin S3300000x20.rank)
  bcast_S_S100000x20 : S_.BroadcastsInDim S100000x20 (![] : Fin 0 → Fin S100000x20.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x20_S100000x20_1_0_0_1_n_n_wf : DotDims.WF S100000x128 S128x20 S100000x20 [1] [0] [0] [1] [] []
  gather_S100000x20_S3300000x1_S3300000x20_1_0_n_n_0_1_120_wf : GatherDims.WF S100000x20 S3300000x1 S3300000x20 [1] [0] [] [0] [] 1 ![1, 20]
  scatter_S100000x20_S3300000x1_S3300000x20_1_0_0_1_wf : ScatterDims.WF S100000x20 S3300000x1 S3300000x20 [1] [0] [0] 1
  dot_S100000x20_S20x10_S100000x10_1_0_0_1_n_n_wf : DotDims.WF S100000x20 S20x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x20_S100000x20_1_0_0_1_n_n : DotDims S100000x128 S128x20 S100000x20 where
  lhsContracting := [1]
  rhsContracting := [0]
  lhsNonContracting := [0]
  rhsNonContracting := [1]
  lhsBatch := []
  rhsBatch := []
  wf := dot_S100000x128_S128x20_S100000x20_1_0_0_1_n_n_wf
def gather_S100000x20_S3300000x1_S3300000x20_1_0_n_n_0_1_120 : GatherDims S100000x20 S3300000x1 S3300000x20 where
  offsetDims := [1]
  collapsedSliceDims := [0]
  operandBatchingDims := []
  startIndicesBatchingDims := []
  startIndexMap := [0]
  indexVectorDim := 1
  sliceSizes := ![1, 20]
  wf := gather_S100000x20_S3300000x1_S3300000x20_1_0_n_n_0_1_120_wf
def scatter_S100000x20_S3300000x1_S3300000x20_1_0_0_1 : ScatterDims S100000x20 S3300000x1 S3300000x20 where
  updateWindowDims := [1]
  insertedWindowDims := [0]
  scatterDimsToOperandDims := [0]
  indexVectorDim := 1
  wf := scatter_S100000x20_S3300000x1_S3300000x20_1_0_0_1_wf
def dot_S100000x20_S20x10_S100000x10_1_0_0_1_n_n : DotDims S100000x20 S20x10 S100000x10 where
  lhsContracting := [1]
  rhsContracting := [0]
  lhsNonContracting := [0]
  rhsNonContracting := [1]
  lhsBatch := []
  rhsBatch := []
  wf := dot_S100000x20_S20x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

class Facts : Prop extends Facts₀ where

variable [Facts]
-- ==== Proof.KernelRun.lean ====
/-
  The idealized kernel's run with its result named.

  @main is eight segments: three stretches of host operations, then each of the three tiled regions followed (for the
  first two) by the host's gather / scale / scatter-add. The launch theorem for a program of several regions gives, at
  the end, every unscoped buffer at the last boundary's contents. Read at the argument arrays that is "unchanged"; read
  at the result buffer it is the third region's output array, `W8 … main_v60`, which the later modules open region by
  region. The segments, the thread states between them and the launch obligations are the generated frame's, by name.
-/
import proofs.«116953_j52304111730991_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and the six argument arrays end as launched. -/
theorem run_result : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Result

end
-- ==== Proof.GcnSpec.lean ====
/-
  The graph side of the two-layer GCN, as functions of the arrays they read.

  With N = 100000 nodes and E = 3200000 edges, the edge array e is 2×E: row 0 the message sources, row 1 the targets.
  * `src e`, `dst e` (length E + N): a row of e followed by the node ids 0 … N−1 — the edges plus one self-loop per node.
  * `deg e`: for each node the number of entries of `dst e` naming it — a scatter-add of ones into zeros (entries
    naming no node are dropped by the scatter).
  * `dis e`: deg^(-1/2) where the degree is positive, zero elsewhere.
  * `wrap ix`: an index below zero is moved up by N (how the host's indexing reads a negative index).
  * `edgeW e`: per edge, dis at its (wrapped) source times dis at its (wrapped) target.
  * `prop20 s d w h`, `prop10 s d w h`: propagate a node-feature matrix h (20 or 10 columns) — gather the rows of h
    at the wrapped sources, scale row k by w k, and scatter-add the rows to the targets, from zeros.
  These are the operations both programs apply on the host, in the same order with the same literals; each program's
  run is read back to them in its own module. Everything is at the ideal values (floats are extended reals).
-/
import proofs.«116953_j52304111730991_1_alg».proof.Proof.Gen.ReferenceIdeal
import Idealize.ShloMosaic.PureOps.Ideal

noncomputable section

namespace Cert.Gcn

open Cert.ReferenceIdeal Cert.ReferenceIdeal.Facts₀
open Idealize.ShloMosaic

/-- Index vectors over the E + N messages, per-message weights, per-node values. -/
abbrev MsgIdx := (⟨S3300000, .i32⟩ : BufTy).Contents (Elt Ideal)
abbrev MsgVal := (⟨S3300000, .f32⟩ : BufTy).Contents (Elt Ideal)
abbrev NodeVal := (⟨S100000, .f32⟩ : BufTy).Contents (Elt Ideal)
abbrev Edges := (⟨S2x3200000, .i32⟩ : BufTy).Contents (Elt Ideal)

/-- Row `r` of the edge array followed by the node ids. -/
def src (e : Edges) : MsgIdx :=
  concatenate S3300000 0 [⟨S3200000, shapeCast S3200000 (extractStridedSlice S1x3200000 ![0, 0] e slices_S2x3200000_S1x3200000_0_0) shapeCasts_S1x3200000_S3200000⟩,
    ⟨S100000, iotaInDim S100000 32 0⟩] concatenates_S3200000_S100000_S3300000_d0

def dst (e : Edges) : MsgIdx :=
  concatenate S3300000 0 [⟨S3200000, shapeCast S3200000 (extractStridedSlice S1x3200000 ![1, 0] e slices_S2x3200000_S1x3200000_1_0) shapeCasts_S1x3200000_S3200000⟩,
    ⟨S100000, iotaInDim S100000 32 0⟩] concatenates_S3200000_S100000_S3300000_d0

/-- An index vector as the one-column matrix the host's gather and scatter take. -/
def col {α : Type} (ix : S3300000.Idx → α) : S3300000x1.Idx → α :=
  broadcastInDim S3300000x1 ![0] bcast_S3300000_S3300000x1_0 ix

/-- How many messages target each node. -/
def deg (e : Edges) : NodeVal :=
  Host.scatterAdd (F := Ideal) scatter_S100000_S3300000x1_S3300000_n_0_0_1
    (broadcastInDim S100000 ![] bcast_S_S100000 (constant (F := Ideal) S_ .f32 0x00000000#32))
    (col (dst e))
    (broadcastInDim S3300000 ![] bcast_S_S3300000 (constant (F := Ideal) S_ .f32 0x3F800000#32))

/-- The degree's reciprocal square root where the degree is positive, zero elsewhere. -/
def dis (e : Edges) : NodeVal :=
  select (cmpf (F := Ideal) (φ := .f32) .ogt (deg e) (broadcastInDim S100000 ![] bcast_S_S100000 (constant (F := Ideal) S_ .f32 0x00000000#32)))
    (Host.rsqrt (F := Ideal) (φ := .f32) (deg e))
    (broadcastInDim S100000 ![] bcast_S_S100000 (id (constant (F := Ideal) S_ .f32 0x00000000#32)))

/-- A negative index is moved up by the number of nodes. -/
def wrap (ix : MsgIdx) : MsgIdx :=
  select (cmpi .slt ix (broadcastInDim S3300000 ![] bcast_S_S3300000 (constantI S_ 32 0#32)))
    (addi ix (broadcastInDim S3300000 ![] bcast_S_S3300000 (constantI S_ 32 100000#32)))
    ix

/-- Per message: dis at its source times dis at its target. -/
def edgeW (e : Edges) : MsgVal :=
  mulf (F := Ideal) (φ := .f32)
    (Host.gather gather_S100000_S3300000x1_S3300000_n_0_n_n_0_1_1 (dis e) (col (wrap (src e))))
    (Host.gather gather_S100000_S3300000x1_S3300000_n_0_n_n_0_1_1 (dis e) (col (wrap (dst e))))

/-- Propagate a 20-column feature matrix along the messages. -/
def prop20 (s d : MsgIdx) (w : MsgVal) (h : (⟨S100000x20, .f32⟩ : BufTy).Contents (Elt Ideal)) :
    (⟨S100000x20, .f32⟩ : BufTy).Contents (Elt Ideal) :=
  Host.scatterAdd (F := Ideal) scatter_S100000x20_S3300000x1_S3300000x20_1_0_0_1
    (broadcastInDim S100000x20 ![] bcast_S_S100000x20 (constant (F := Ideal) S_ .f32 0x00000000#32))
    (col d)
    (mulf (F := Ideal) (φ := .f32) (broadcastInDim S3300000x20 ![0, 1] bcast_S3300000x1_S3300000x20_0_1 (col w))
      (Host.gather gather_S100000x20_S3300000x1_S3300000x20_1_0_n_n_0_1_120 h (col (wrap s))))

/-- Propagate a 10-column feature matrix along the messages. -/
def prop10 (s d : MsgIdx) (w : MsgVal) (h : (⟨S100000x10, .f32⟩ : BufTy).Contents (Elt Ideal)) :
    (⟨S100000x10, .f32⟩ : BufTy).Contents (Elt Ideal) :=
  Host.scatterAdd (F := Ideal) scatter_S100000x10_S3300000x1_S3300000x10_1_0_0_1
    (broadcastInDim S100000x10 ![] bcast_S_S100000x10 (constant (F := Ideal) S_ .f32 0x00000000#32))
    (col d)
    (mulf (F := Ideal) (φ := .f32) (broadcastInDim S3300000x10 ![0, 1] bcast_S3300000x1_S3300000x10_0_1 (col w))
      (Host.gather gather_S100000x10_S3300000x1_S3300000x10_1_0_n_n_0_1_110 h (col (wrap s))))

end Cert.Gcn

end
-- ==== Proof.KernelPre.lean ====
/-
  The idealized kernel's host preamble, read back.

  Before its first tiled region the kernel's @main runs forty host operations in three stretches. This module reads,
  after them, the arrays the rest of the program uses, as functions of the argument arrays as launched: the five float
  arguments unchanged, and from the edge array e the graph side of GcnSpec — src e, dst e, and the edge weights
  edgeW e (through dis e, read after the second stretch). A stretch is a straight line of operations, so what a buffer
  holds after it is the fold of the operations' results over what was there before.
-/
import proofs.«116953_j52304111730991_1_alg».proof.Proof.Gen.KernelIdeal.Frame
import proofs.«116953_j52304111730991_1_alg».proof.Proof.GcnSpec
import Idealize.ShloMosaic.Lib.StableHlo.Run
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The arguments reach the regions as launched -/

theorem W3_x : W3 m ρ c (Proc.devRef .tc main_arg0) = m ((c : Thread nD τ).loc main_arg0) := by
  dsimp only [W3, W2, W1, W0, hostOps0, hostOps0_1, hostOps0_2]
  after_results
  try rfl
theorem W3_w1 : W3 m ρ c (Proc.devRef .tc main_arg2) = m ((c : Thread nD τ).loc main_arg2) := by
  dsimp only [W3, W2, W1, W0, hostOps0, hostOps0_1, hostOps0_2]
  after_results
  try rfl
theorem W3_b1 : W3 m ρ c (Proc.devRef .tc main_arg3) = m ((c : Thread nD τ).loc main_arg3) := by
  dsimp only [W3, W2, W1, W0, hostOps0, hostOps0_1, hostOps0_2]
  after_results
  try rfl
theorem W3_w2 : W3 m ρ c (Proc.devRef .tc main_arg4) = m ((c : Thread nD τ).loc main_arg4) := by
  dsimp only [W3, W2, W1, W0, hostOps0, hostOps0_1, hostOps0_2]
  after_results
  try rfl
theorem W3_b2 : W3 m ρ c (Proc.devRef .tc main_arg5) = m ((c : Thread nD τ).loc main_arg5) := by
  dsimp only [W3, W2, W1, W0, hostOps0, hostOps0_1, hostOps0_2]
  after_results
  try rfl

/-! ## After the host preamble: the graph side -/

theorem pre_src : W3 m ρ c (Proc.devRef .tc main_v3) = Cert.Gcn.src (m ((c : Thread nD τ).loc main_arg1)) := by
  dsimp only [W3, W2, W1, W0, hostOps0, hostOps0_1, hostOps0_2]
  after_results
  try rfl
theorem pre_dst : W3 m ρ c (Proc.devRef .tc main_v6) = Cert.Gcn.dst (m ((c : Thread nD τ).loc main_arg1)) := by
  dsimp only [W3, W2, W1, W0, hostOps0, hostOps0_1, hostOps0_2]
  after_results
  try rfl
theorem W2_src : W2 m ρ c (Proc.devRef .tc main_v3) = Cert.Gcn.src (m ((c : Thread nD τ).loc main_arg1)) := by
  dsimp only [W2, W1, W0, hostOps0, hostOps0_1]
  after_results
  try rfl
theorem W2_dst : W2 m ρ c (Proc.devRef .tc main_v6) = Cert.Gcn.dst (m ((c : Thread nD τ).loc main_arg1)) := by
  dsimp only [W2, W1, W0, hostOps0, hostOps0_1]
  after_results
  try rfl
/-- The degree, after the first stretch. -/
theorem W1_deg : W1 m ρ c (Proc.devRef .tc main_v10) = Cert.Gcn.deg (m ((c : Thread nD τ).loc main_arg1)) := by
  dsimp only [W1, W0, hostOps0]
  after_results
  rfl
/-- Where the degree is positive. -/
theorem W1_pos : W1 m ρ c (Proc.devRef .tc main_v12)
    = cmpf (F := Ideal) (φ := .f32) .ogt (Cert.Gcn.deg (m ((c : Thread nD τ).loc main_arg1)))
        (broadcastInDim S100000 ![] Cert.KernelIdeal.Facts₀.bcast_S_S100000 (constant (F := Ideal) S_ .f32 0x00000000#32)) := by
  dsimp only [W1, W0, hostOps0]
  after_results
  rfl
/-- The degree's reciprocal square root. -/
theorem W1_rsqrt : W1 m ρ c (Proc.devRef .tc main_v13)
    = Host.rsqrt (F := Ideal) (φ := .f32) (Cert.Gcn.deg (m ((c : Thread nD τ).loc main_arg1))) := by
  dsimp only [W1, W0, hostOps0]
  after_results
  rfl
theorem W1_zero : W1 m ρ c (Proc.devRef .tc main_cst_2) = constant (F := Ideal) S_ .f32 0x00000000#32 := by
  dsimp only [W1, W0, hostOps0]
  after_results
  try rfl
/-- The `where`: the reciprocal root where the degree is positive, zero elsewhere. -/
theorem W2_dis : W2 m ρ c (Proc.devRef .tc main_v14) = Cert.Gcn.dis (m ((c : Thread nD τ).loc main_arg1)) := by
  have h : W2 m ρ c (Proc.devRef .tc main_v14)
      = select (W1 m ρ c (Proc.devRef .tc main_v12)) (W1 m ρ c (Proc.devRef .tc main_v13))
          (broadcastInDim S100000 ![] Cert.KernelIdeal.Facts₀.bcast_S_S100000 (id (W1 m ρ c (Proc.devRef .tc main_cst_2)))) := by
    dsimp only [W2, hostOps0_1]
    generalize hV : W1 m ρ c = V
    after_results
    rfl
  rw [h, W1_pos, W1_rsqrt, W1_zero]
  rfl
set_option maxHeartbeats 4000000 in
theorem pre_w : W3 m ρ c (Proc.devRef .tc main_v29) = Cert.Gcn.edgeW (m ((c : Thread nD τ).loc main_arg1)) := by
  dsimp only [W3, hostOps0_2]
  generalize hV : W2 m ρ c = V
  after_results
  subst hV
  rw [W2_dis, W2_src, W2_dst]
  rfl

end Cert.KernelIdeal.Chain

end
-- ==== Proof.LibPlainProduct.lean ====
/-
  The plain matrix product `[m, k] × [k, n] → [m, n]` (dimension numbers: contract the left operand's axis 1 with the
  right operand's axis 0, no batch axis), read at an entry at the ideal values, for ANY record with those dimension
  numbers whatever its well-formedness proof: a `tpu.matmul` into the zero accumulator and the host's `dot_general` are
  both `Σ_c A(a, c) · B(c, b)` over the literal range `Fin k`. General lemmas in the library's style
  (Lib/StackMember.lean states the same for the record `DotDims.plain`).
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {m k n : Nat} {φ₁ φ₂ : FTy}

/-- The plain product's record, from its well-formedness. -/
abbrev rec2 (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output entry `(a, b)` and contraction coordinate `c` is `(a, c)`. -/
theorem lhsIdx_eq (w : DotDims.WF ⟨2, ![m, k]⟩ ⟨2, ![k, n]⟩ ⟨2, ![m, n]⟩ [1] [0] [0] [1] [] []) (a : Fin m) (b : Fin n) (c : Fin k) :
    (rec2 w).lhsIdx (ix2 a b) ((contrEquiv1 (rec2 w) k rfl rfl).symm c) = ix2 a c := by
  have c2 := contrEquiv1_symm_val (rec2 w) k rfl rfl c
  funext ax; apply Fin.ext
  match ax with
  | ⟨0, _⟩ => simp [DotDims.lhsIdx]; rfl
  | ⟨1, _⟩ => simp [DotDims.lhsIdx]; exact c2

/-- The right operand's index there is `(c, b)`. -/
theorem rhsIdx_eq (w : DotDims.WF ⟨2, ![m, k]⟩ ⟨2, ![k, n]⟩ ⟨2, ![m, n]⟩ [1] [0] [0] [1] [] []) (a : Fin m) (b : Fin n) (c : Fin k) :
    (rec2 w).rhsIdx (ix2 a b) ((contrEquiv1 (rec2 w) k rfl rfl).symm c) = ix2 c b := by
  have c2 := contrEquiv1_symm_val (rec2 w) k rfl rfl c
  funext ax; apply Fin.ext
  match ax with
  | ⟨0, _⟩ => simp [DotDims.rhsIdx]; exact c2
  | ⟨1, _⟩ => simp [DotDims.rhsIdx]; rfl

/-- A `tpu.matmul` with these dimension numbers into the zero accumulator, at entry `(a, b)`. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (rec2 w) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (rec2 w) k rfl rfl).symm]
  refine Finset.sum_congr rfl fun c _ => ?_
  rw [lhsIdx_eq, rhsIdx_eq]

/-- The host's `dot_general` with these dimension numbers, at entry `(a, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (rec2 w) prec A B (ix2 a b) = ∑ c : Fin k, A (ix2 a c) * B (ix2 c b) := by
  show FloatOps.dotGeneral _ prec _ A B (ix2 a b) = _
  rw [Ideal.dotGeneral_apply, ← Equiv.sum_comp (contrEquiv1 (rec2 w) k rfl rfl).symm]
  refine Finset.sum_congr rfl fun c _ => ?_
  rw [lhsIdx_eq, rhsIdx_eq]

end Idealize.ShloMosaic.PlainProduct

end
-- ==== Proof.Linear1.lean ====
/-
  The first tiled region: x·W1.

  The region walks ten row tiles. At tile t it loads rows 10000·t … 10000·t + 9999 of x (all 128 columns) and the whole
  of W1, and stores their product into the same rows of the 100000×20 output. An output row depends only on the same
  row of x, so every tile's block is the restriction of ONE whole-array function, the plain product
  (x·W1)(r, j) = Σ_k x(r, k)·W1(k, j); the ten blocks tile the output, so that function is what the array holds when the
  region ends. The rounding of the operands to bf16 before the product is the identity at the ideal values.
-/
import proofs.«116953_j52304111730991_1_alg».proof.Proof.Gen.KernelIdeal.Frame
import proofs.«116953_j52304111730991_1_alg».proof.Proof.LibPlainProduct
import Idealize.ShloMosaic.Lib.Pipeline.Value
import Idealize.ShloMosaic.Lib.ValueIdx

set_option maxRecDepth 16384

noncomputable section

open scoped BigOperators

namespace Cert.KernelIdeal.Linear1

open Cert.KernelIdeal Cert.KernelIdeal.Gen
open Idealize.ShloMosaic Idealize.ShloMosaic.TcCoe Idealize.ShloMosaic.ValueIdx Idealize.SL.Sem
open Idealize.ShloMosaic.Pipeline (Dat)

/-- The plain product of a 100000×128 matrix with a 128×20 matrix, entry by entry. -/
def xw (x : S100000x128.Idx → EReal) (w : S128x20.Idx → EReal) : S100000x20.Idx → EReal :=
  fun i => ∑ k : Fin 128, x (ix2 (i 0) k) * w (ix2 k (i 1))

theorem hz : (![0, 0] : Fin 2 → Nat) = fun _ => 0 := funext fun a => by fin_cases a <;> rfl

/-- One tile's stored value at an entry: the product of the loaded rows with the loaded weights. -/
theorem tile_entry (x0 : Vec Ideal S10000x128 .f32) (x1 : Vec Ideal S128x20 .f32) (a : Fin 10000) (b : Fin 20) :
    k0_pay1 (F := Ideal) x0 x1 (ix2 a b) = ∑ k : Fin 128, x0 (ix2 a k) * x1 (ix2 k b) := by
  unfold k0_pay1
  exact PlainProduct.matmul_zero_apply Cert.KernelIdeal.Facts₀.dot_S10000x128_S128x20_S10000x20_1_0_0_1_n_n_wf none _ _ a b

/-- The windows' block indices over the grid: the x window and the output window sit at row block t, column block 0;
    the W1 window at block (0, 0). -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What tile t writes back is block t of the product of the arrays the region finds. -/
theorem flushed_eq (c : Dev nD) (t : Fin cfg0.N) :
    (dat0 V c).flushed 2 t = ((cfg0.win 2).blk t).view.read (Elt Ideal) (xw (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x20) hz]
  obtain ⟨e0, e1, e2, e3, e4, e5⟩ := idx_facts t
  funext j
  obtain ⟨a, b, rfl⟩ : ∃ (a : Fin 10000) (b : Fin 20), j = ix2 a b := ⟨j 0, j 1, eq_ix2 j⟩
  show k0_pay1 (iblk0 V c 0 t) (iblk0 V c 1 t) (ix2 a b) = xw (V c main_arg0) (V c main_arg2) (((cfg0.win 2).blk t).view.emb (ix2 a b))
  rw [tile_entry]
  unfold xw
  refine Finset.sum_congr rfl fun k _ => ?_
  have h0 : ((cfg0.win 0).blk t).view.emb (ix2 a k) = ix2 ((((cfg0.win 2).blk t).view.emb (ix2 a b)) 0) k := by
    funext ax; apply Fin.ext
    match ax with
    | ⟨0, _⟩ => show win0_0.index t (0 : Fin 2) * 10000 + 1 * a.val = win0_2.index t (0 : Fin 2) * 10000 + 1 * a.val; omega
    | ⟨1, _⟩ => show win0_0.index t (1 : Fin 2) * 128 + 1 * k.val = k.val; omega
  have h1 : ((cfg0.win 1).blk t).view.emb (ix2 k b) = ix2 k ((((cfg0.win 2).blk t).view.emb (ix2 a b)) 1) := by
    funext ax; apply Fin.ext
    match ax with
    | ⟨0, _⟩ => show win0_1.index t (0 : Fin 2) * 128 + 1 * k.val = k.val; omega
    | ⟨1, _⟩ => show win0_1.index t (1 : Fin 2) * 20 + 1 * b.val = win0_2.index t (1 : Fin 2) * 20 + 1 * b.val; omega
  have r0 : iblk0 V c 0 t (ix2 a k) = V c main_arg0 (ix2 ((((cfg0.win 2).blk t).view.emb (ix2 a b)) 0) k) := by
    exact congrArg (V c main_arg0) h0
  have r1 : iblk0 V c 1 t (ix2 k b) = V c main_arg2 (ix2 k ((((cfg0.win 2).blk t).view.emb (ix2 a b)) 1)) := by
    exact congrArg (V c main_arg2) h1
  rw [r0, r1]

/-- An index of the output is in tile t's block iff its row is among the tile's rows. -/
theorem mem_blk (t : Fin cfg0.N) (i : S100000x20.Idx) :
    i ∈ ((cfg0.win 2).blk t).view.set ↔ ∀ a : Fin 2, win0_2.index t a * S10000x20.size a ≤ (i a).val ∧ (i a).val < win0_2.index t a * S10000x20.size a + S10000x20.size a := by
  show i ∈ ((View.whole main_v30).slice (win0_2.rect t)).set ↔ _
  rw [View.set_slice_whole, Rect.mem_set_unit]
  exact Iff.rfl

/-- Every output index lies in the block of the tile that holds its row. -/
theorem cover (i : S100000x20.Idx) : ∃ t : Fin cfg0.N, (cfg0.win 2).flush t = true ∧ i ∈ ((cfg0.win 2).blk t).view.set := by
  have hi0 : (i 0).val < 100000 := (i 0).isLt
  have hi1 : (i 1).val < 20 := (i 1).isLt
  have hN : cfg0.N = 10 := N_0
  refine ⟨⟨(i 0).val / 10000, by rw [hN]; omega⟩, flush0_2 _, ?_⟩
  rw [mem_blk]
  obtain ⟨-, -, -, -, e4, e5⟩ := idx_facts ⟨(i 0).val / 10000, by rw [hN]; omega⟩
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ _ ∧ _ < (i 0).val / 10000 * 10000 + 10000; omega
  | ⟨1, _⟩ => show win0_2.index _ (1 : Fin 2) * 20 ≤ (i 1).val ∧ (i 1).val < win0_2.index _ (1 : Fin 2) * 20 + 20; rw [e5]; omega

/-- When the region ends its output array holds the product of the two input arrays as the region found them. -/
theorem final (c : Dev nD) : (dat0 V c).arrAt 2 cfg0.N = xw (V c main_arg0) (V c main_arg2) :=
  (dat0 V c).arrAt_eq_of_cover 2 (xw (V c main_arg0) (V c main_arg2)) (fun t _ => flushed_eq V c t) cover

end Cert.KernelIdeal.Linear1

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.LibSameShapeCast.lean ====
/-
  Operands that pass through a cast to their own shape. General in the extents.

  A `vector.shape_cast` to the same shape is the identity, so
  * a plain matrix product `[m, k] × [k, n]` into the zero accumulator whose right operand is such a cast is, at entry
    `(a, b)`, `Σ_c A(a, c) · B(c, b)` of the operand under the cast;
  * a one-row matrix `[1, n]` under such a cast, broadcast down `m` rows, is at entry `(p, k)` the row's entry `(0, k)`.
-/
import proofs.«116953_j52304111730991_1_alg».proof.Proof.LibPlainProduct
import proofs.«116953_j52304111730991_1_alg».proof.Proof.LibBroadcastTo
import Idealize.ShloMosaic.Lib.Pipeline.Value

noncomputable section

open scoped BigOperators

namespace Cert.SameShapeCast

open Idealize.ShloMosaic Idealize.ShloMosaic.ValueIdx

variable {m k n : Nat} {φ₁ φ₂ : FTy}

/-- A product into zero whose right operand is cast to its own shape, at entry `(a, b)`. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (hc : (⟨2, ![k, n]⟩ : Shape).ShapeCasts ⟨2, ![k, n]⟩) (a : Fin m) (b : Fin n) :
    matmul (PlainProduct.rec2 w) prec A (shapeCast ⟨2, ![k, n]⟩ B hc) (constant (F := Ideal) ⟨2, ![m, n]⟩ .f32 0x00000000#32) (ix2 a b)
      = ∑ c : Fin k, A (ix2 a c) * B (ix2 c b) := by
  rw [shapeCast_self]
  exact PlainProduct.matmul_zero_apply w prec A B a b

/-- A one-row matrix cast to its own shape and broadcast down the rows keeps the column coordinate. -/
theorem row_apply {α : Type} (x : (⟨2, ![1, n]⟩ : Shape).Idx → α) (hc : (⟨2, ![1, n]⟩ : Shape).ShapeCasts ⟨2, ![1, n]⟩)
    (h : (⟨2, ![1, n]⟩ : Shape).Broadcasts ⟨2, ![m, n]⟩) (p : Fin m) (j : Fin n) :
    broadcastTo ⟨2, ![m, n]⟩ (shapeCast ⟨2, ![1, n]⟩ x hc) h (ix2 p j) = x (ix2 0 j) := by
  rw [shapeCast_self]
  exact BroadcastTo.row_apply x h p j

end Cert.SameShapeCast

end
-- ==== Proof.Linear2.lean ====
/-
  The second tiled region: relu(agg + b1)·W2.

  Ten row tiles again. At tile t the region loads rows 10000·t … 10000·t + 9999 of the aggregated features (20 columns),
  the bias as a one-row matrix and the whole of W2; it adds the bias to every row, clamps below at zero, and stores the
  product with W2 into the same rows of the 100000×10 output. Row r of the output depends only on row r of the input,
  so each tile's block is the restriction of one whole-array function,
  (r, j) ↦ Σ_k max(agg(r, k) + b(0, k), 0)·W2(k, j), and the ten blocks tile the output.
-/
import proofs.«116953_j52304111730991_1_alg».proof.Proof.Gen.KernelIdeal.Frame
import proofs.«116953_j52304111730991_1_alg».proof.Proof.LibPlainProduct
import proofs.«116953_j52304111730991_1_alg».proof.Proof.LibSameShapeCast
import Idealize.ShloMosaic.Lib.Pipeline.Value
import Idealize.ShloMosaic.Lib.ValueIdx

set_option maxRecDepth 16384

noncomputable section

open scoped BigOperators

namespace Cert.KernelIdeal.Linear2

open Cert.KernelIdeal Cert.KernelIdeal.Gen
open Idealize.ShloMosaic Idealize.ShloMosaic.TcCoe Idealize.ShloMosaic.ValueIdx Idealize.SL.Sem
open Idealize.ShloMosaic.Pipeline (Dat)

/-- Bias, clamp at zero, then the plain product with a 20×10 matrix, entry by entry. -/
def hw (agg : S100000x20.Idx → EReal) (b : S1x20.Idx → EReal) (w : S20x10.Idx → EReal) : S100000x10.Idx → EReal :=
  fun i => ∑ k : Fin 20, max (agg (ix2 (i 0) k) + b (ix2 (0 : Fin 1) k)) (Ideal.ofBits .f32 0x00000000#32) * w (ix2 k (i 1))

theorem hz : (![0, 0] : Fin 2 → Nat) = fun _ => 0 := funext fun a => by fin_cases a <;> rfl

/-- One tile's stored value at an entry. -/
theorem tile_entry (x0 : Vec Ideal S10000x20 .f32) (x1 : Vec Ideal S1x20 .f32) (x2 : Vec Ideal S20x10 .f32) (a : Fin 10000) (b : Fin 10) :
    k1_pay1 (F := Ideal) x0 x1 x2 (ix2 a b)
      = ∑ k : Fin 20, max (x0 (ix2 a k) + x1 (ix2 (0 : Fin 1) k)) (Ideal.ofBits .f32 0x00000000#32) * x2 (ix2 k b) := by
  unfold k1_pay1
  refine (PlainProduct.matmul_zero_apply Cert.KernelIdeal.Facts₀.dot_S10000x20_S20x10_S10000x10_1_0_0_1_n_n_wf none _ _ a b).trans ?_
  refine Finset.sum_congr rfl fun k _ => ?_
  refine congrArg (· * x2 (ix2 k b)) ?_
  show max (shapeCast S10000x20 x0 Cert.KernelIdeal.Facts₀.shapeCasts_S10000x20_S10000x20 (ix2 a k)
      + broadcastTo S10000x20 (shapeCast S1x20 x1 Cert.KernelIdeal.Facts₀.shapeCasts_S1x20_S1x20) Cert.KernelIdeal.Facts₀.broadcasts_S1x20_S10000x20 (ix2 a k))
      (Ideal.ofBits .f32 0x00000000#32) = _
  rw [shapeCast_self, Cert.SameShapeCast.row_apply]

/-- The windows' block indices over the grid: the input rows and the output rows sit at row block t; the bias and W2
    at block (0, 0). -/
theorem idx_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What tile t writes back is block t of that function of the arrays the region finds. -/
theorem flushed_eq (c : Dev nD) (t : Fin cfg1.N) :
    (dat1 V c).flushed 3 t = ((cfg1.win 3).blk t).view.read (Elt Ideal) (hw (V c main_v43) (V c main_v44) (V c main_arg4)) := by
  show (cfg1.win 3).cut (grid1.coords t) ((dat1 V c).after 3 t) = _
  rw [after1_3]
  unfold out1_3
  rw [View.canon_unit_zero hz]
  simp only [View.ld_unit_zero (S := S10000x20) hz, View.ld_unit_zero (S := S1x20) hz, View.ld_unit_zero (S := S20x10) hz]
  obtain ⟨e0, e1, e2, e3, e4, e5, e6, e7⟩ := idx_facts t
  funext j
  obtain ⟨a, b, rfl⟩ : ∃ (a : Fin 10000) (b : Fin 10), j = ix2 a b := ⟨j 0, j 1, eq_ix2 j⟩
  show k1_pay1 (iblk1 V c 0 t) (iblk1 V c 1 t) (iblk1 V c 2 t) (ix2 a b)
    = hw (V c main_v43) (V c main_v44) (V c main_arg4) (((cfg1.win 3).blk t).view.emb (ix2 a b))
  rw [tile_entry]
  unfold hw
  refine Finset.sum_congr rfl fun k _ => ?_
  have h0 : ((cfg1.win 0).blk t).view.emb (ix2 a k) = ix2 ((((cfg1.win 3).blk t).view.emb (ix2 a b)) 0) k := by
    funext ax; apply Fin.ext
    match ax with
    | ⟨0, _⟩ => show win1_0.index t (0 : Fin 2) * 10000 + 1 * a.val = win1_3.index t (0 : Fin 2) * 10000 + 1 * a.val; omega
    | ⟨1, _⟩ => show win1_0.index t (1 : Fin 2) * 20 + 1 * k.val = k.val; omega
  have h1 : ((cfg1.win 1).blk t).view.emb (ix2 (0 : Fin 1) k) = ix2 (0 : Fin 1) k := by
    funext ax; apply Fin.ext
    match ax with
    | ⟨0, _⟩ => show win1_1.index t (0 : Fin 2) * 1 + 1 * 0 = 0; omega
    | ⟨1, _⟩ => show win1_1.index t (1 : Fin 2) * 20 + 1 * k.val = k.val; omega
  have h2 : ((cfg1.win 2).blk t).view.emb (ix2 k b) = ix2 k ((((cfg1.win 3).blk t).view.emb (ix2 a b)) 1) := by
    funext ax; apply Fin.ext
    match ax with
    | ⟨0, _⟩ => show win1_2.index t (0 : Fin 2) * 20 + 1 * k.val = k.val; omega
    | ⟨1, _⟩ => show win1_2.index t (1 : Fin 2) * 10 + 1 * b.val = win1_3.index t (1 : Fin 2) * 10 + 1 * b.val; omega
  have r0 : iblk1 V c 0 t (ix2 a k) = V c main_v43 (ix2 ((((cfg1.win 3).blk t).view.emb (ix2 a b)) 0) k) := by
    exact congrArg (V c main_v43) h0
  have r1 : iblk1 V c 1 t (ix2 (0 : Fin 1) k) = V c main_v44 (ix2 (0 : Fin 1) k) := by
    exact congrArg (V c main_v44) h1
  have r2 : iblk1 V c 2 t (ix2 k b) = V c main_arg4 (ix2 k ((((cfg1.win 3).blk t).view.emb (ix2 a b)) 1)) := by
    exact congrArg (V c main_arg4) h2
  rw [r0, r1, r2]

/-- An index of the output is in tile t's block iff its row is among the tile's rows. -/
theorem mem_blk (t : Fin cfg1.N) (i : S100000x10.Idx) :
    i ∈ ((cfg1.win 3).blk t).view.set ↔ ∀ a : Fin 2, win1_3.index t a * S10000x10.size a ≤ (i a).val ∧ (i a).val < win1_3.index t a * S10000x10.size a + S10000x10.size a := by
  show i ∈ ((View.whole main_v45).slice (win1_3.rect t)).set ↔ _
  rw [View.set_slice_whole, Rect.mem_set_unit]
  exact Iff.rfl

/-- Every output index lies in the block of the tile that holds its row. -/
theorem cover (i : S100000x10.Idx) : ∃ t : Fin cfg1.N, (cfg1.win 3).flush t = true ∧ i ∈ ((cfg1.win 3).blk t).view.set := by
  have hi0 : (i 0).val < 100000 := (i 0).isLt
  have hi1 : (i 1).val < 10 := (i 1).isLt
  have hN : cfg1.N = 10 := N_1
  refine ⟨⟨(i 0).val / 10000, by rw [hN]; omega⟩, flush1_3 _, ?_⟩
  rw [mem_blk]
  obtain ⟨-, -, -, -, -, -, e6, e7⟩ := idx_facts ⟨(i 0).val / 10000, by rw [hN]; omega⟩
  intro a
  match a with
  | ⟨0, _⟩ => show win1_3.index _ (0 : Fin 2) * 10000 ≤ (i 0).val ∧ (i 0).val < win1_3.index _ (0 : Fin 2) * 10000 + 10000; rw [e6]; show (i 0).val / 10000 * 10000 ≤ _ ∧ _ < (i 0).val / 10000 * 10000 + 10000; omega
  | ⟨1, _⟩ => show win1_3.index _ (1 : Fin 2) * 10 ≤ (i 1).val ∧ (i 1).val < win1_3.index _ (1 : Fin 2) * 10 + 10; rw [e7]; omega

/-- When the region ends its output array holds that function of the three input arrays as the region found them. -/
theorem final (c : Dev nD) : (dat1 V c).arrAt 3 cfg1.N = hw (V c main_v43) (V c main_v44) (V c main_arg4) :=
  (dat1 V c).arrAt_eq_of_cover 3 (hw (V c main_v43) (V c main_v44) (V c main_arg4)) (fun t _ => flushed_eq V c t) cover

end Cert.KernelIdeal.Linear2

end
-- ==== Proof.SoftmaxRow.lean ====
/-
  A row's log-softmax over the extended reals.

  For a row z of ten entries: the row's maximum M is the fold of `max` over the entries from the word -inf (the least
  extended real); entry j of the result is (z j − M) − log Σ_k exp (z k − M). Both programs compute exactly this along
  every row, the kernel with the vector unit's lane reductions and the reference with the host's; this module only
  names it, over any float word's value `ninf` for the fold's start.
-/
import Idealize.ShloMosaic.PureOps.Ideal

noncomputable section

open scoped BigOperators

namespace Cert.SoftmaxRow

open Idealize.ShloMosaic

/-- The maximum of a row of ten, folded from the word -inf. -/
def rowMax (z : Fin 10 → EReal) : EReal :=
  (Finset.univ : Finset (Fin 10)).fold (max : EReal → EReal → EReal) (Ideal.ofBits .f32 0xFF800000#32 : EReal) z

/-- Entry j of the log-softmax of a row of ten. -/
def logSoftmax (z : Fin 10 → EReal) (j : Fin 10) : EReal :=
  (z j - rowMax z) - Ideal.log (∑ k : Fin 10, Ideal.exp (z k - rowMax z))

end Cert.SoftmaxRow

end
-- ==== Proof.LibLayoutReads.lean ====
/-
  Three layout operations read at one entry, general in the extents and in the element type.

  * a vector `[n]` reshaped to a column `[n, 1]`: entry `(r, 0)` is the vector's entry `r` (both sit at row-major
    position `r`);
  * a vector `[n]` reshaped to a row `[1, n]`: entry `(0, b)` is the vector's entry `b`;
  * `r` consecutive rows of a matrix `[R, C]` from row `o` on, all `C` columns: entry `(a, b)` is the matrix's entry
    `(o + a, b)`.
-/
import Idealize.ShloMosaic.Lib.Pipeline.Value
import Idealize.ShloMosaic.Lib.ValueIdx

noncomputable section

namespace Cert.LayoutReads

open Idealize.ShloMosaic Idealize.ShloMosaic.ValueIdx

variable {α : Type}

/-- A vector `[n]` reshaped to a column `[n, 1]`, read at `(r, 0)`, is the vector at `r`. -/
theorem col_of_vec_apply {n : Nat} (v : (⟨1, ![n]⟩ : Shape).Idx → α) (h : (⟨1, ![n]⟩ : Shape).ShapeCasts ⟨2, ![n, 1]⟩)
    (r : Fin n) : shapeCast ⟨2, ![n, 1]⟩ v h (ix2 r (0 : Fin 1)) = v (ix1 r) :=
  shapeCast_apply v h (ix2 r (0 : Fin 1)) (ix1 r) (by
    rw [Shape.rowMajor_val_two, Shape.rowMajor_val_one]; show r.val = r.val * 1 + 0; omega)

/-- A vector `[n]` reshaped to a row `[1, n]`, read at `(0, b)`, is the vector at `b`. -/
theorem row_of_vec_apply {n : Nat} (v : (⟨1, ![n]⟩ : Shape).Idx → α) (h : (⟨1, ![n]⟩ : Shape).ShapeCasts ⟨2, ![1, n]⟩)
    (b : Fin n) : shapeCast ⟨2, ![1, n]⟩ v h (ix2 (0 : Fin 1) b) = v (ix1 b) :=
  shapeCast_apply v h (ix2 (0 : Fin 1) b) (ix1 b) (by
    rw [Shape.rowMajor_val_two, Shape.rowMajor_val_one]; show b.val = 0 * n + b.val; omega)

/-- Rows `o` to `o + r` of a matrix `[R, C]`, all columns, read at `(a, b)`, are the matrix at `(o + a, b)`. -/
theorem rows_slice_apply {R C r o : Nat} (x : (⟨2, ![R, C]⟩ : Shape).Idx → α)
    (h : (⟨2, ![R, C]⟩ : Shape).Slices ![o, 0] ⟨2, ![r, C]⟩) (hb : o + r ≤ R) (a : Fin r) (b : Fin C) :
    extractStridedSlice ⟨2, ![r, C]⟩ ![o, 0] x h (ix2 a b)
      = x (ix2 (⟨o + a.val, by have := a.isLt; omega⟩ : Fin R) b) :=
  extractStridedSlice_apply ![o, 0] x h (ix2 a b) (ix2 (⟨o + a.val, by have := a.isLt; omega⟩ : Fin R) b)
    (fun c => match c with
      | ⟨0, _⟩ => rfl
      | ⟨1, _⟩ => by show b.val = 0 + b.val; omega)

end Cert.LayoutReads

end
-- ==== Proof.LibRowSum.lean ====
/-
  A sum along the rows of a matrix, read at one entry.

  The vector unit's sum over axis 1 of an m×n matrix (from a zero accumulator) is, at row `a`, the sum of the
  entries of that row. The companion of the column form (a sum over axis 0), general in the two extents.
-/
import Idealize.ShloMosaic.PureOps.Ideal.Laws
import Idealize.ShloMosaic.Lib.ValueIdx

noncomputable section

namespace LibRowSum

open Idealize.ShloMosaic Idealize.ShloMosaic.ValueIdx
open scoped BigOperators

variable {m n : Nat}

/-- The source index of a row sum: column `k` of row `a`. -/
theorem lift_row (h : (⟨2, ![m, n]⟩ : Shape).Reduces [1] ⟨1, ![m]⟩) (a : Fin m) (k : Fin n) :
    h.lift (ix1 a) k = ix2 a k := by
  funext c
  apply Fin.ext
  match c with
  | ⟨0, _⟩ => rfl
  | ⟨1, _⟩ => rfl

/-- The sum over axis 1 of an m×n matrix at row `a`: the sum along the row. The accumulator hypothesis is the
    equation of the two zero words. -/
theorem multiReduction_add_row (src : FVec Ideal ⟨2, ![m, n]⟩ .f32) (h : (⟨2, ![m, n]⟩ : Shape).Reduces [1] ⟨1, ![m]⟩)
    (hφ : FKind.Formats .f32) (hacc : (0x00000000#32 : BitVec 32) = 0x00000000#32) (a : Fin m) :
    multiReduction .add [1] ⟨1, ![m]⟩ src 0x00000000#32 h hφ hacc (ix1 a) = ∑ k : Fin n, src (ix2 a k) := by
  refine (Ideal.multiReduction_add_single src 0x00000000#32 h hφ hacc (ix1 a)).trans ?_
  show ∑ k : Fin n, src (h.lift (ix1 a) k) = _
  exact Finset.sum_congr rfl fun k _ => congrArg src (lift_row h a k)

end LibRowSum

end
-- ==== Proof.LibHostRead.lean ====
/-
  The host's whole-array operations read at one entry, general in the extents.

  * a vector laid out as a one-row matrix, a row repeated down the rows, a vector laid out as a one-column matrix, a
    column repeated across the columns, and a rank-zero array repeated everywhere: each reads ONE element of its operand;
  * the sum of a matrix over its column axis from an initial value: at row `p` the initial value plus
    `∑ k, x (p, k)`;
  * the fold of `max` over the column axis from the word `-inf`: at row `p` the fold over `k` of `x (p, k)`; the
    word `-inf` is the least extended real, so a further `max` with it changes nothing.
-/
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

open scoped BigOperators

namespace Cert.HostRead

open Idealize.ShloMosaic Idealize.ShloMosaic.ValueIdx

variable {α : Type} {m n : Nat}

/-! ## Layouts -/

/-- A vector as a one-row matrix: entry `(u, k)` is the vector's entry `k`. -/
theorem vec_row_apply (b : (⟨1, ![n]⟩ : Shape).Idx → α) (h : (⟨1, ![n]⟩ : Shape).BroadcastsInDim ⟨2, ![1, n]⟩ ![1])
    (u : Fin 1) (k : Fin n) : broadcastInDim ⟨2, ![1, n]⟩ ![1] h b (ix2 u k) = b (ix1 k) :=
  broadcastInDim_apply _ h b (ix2 u k) (ix1 k) (fun a => match a with
    | ⟨0, _⟩ => by
      show k.val = if n = 1 then 0 else k.val
      split
      · have := k.isLt; omega
      · rfl)

/-- A one-row matrix repeated down the rows: entry `(p, k)` is the row's entry `(0, k)`. -/
theorem row_rows_apply (x : (⟨2, ![1, n]⟩ : Shape).Idx → α) (h : (⟨2, ![1, n]⟩ : Shape).BroadcastsInDim ⟨2, ![m, n]⟩ ![0, 1])
    (p : Fin m) (k : Fin n) : broadcastInDim ⟨2, ![m, n]⟩ ![0, 1] h x (ix2 p k) = x (ix2 0 k) :=
  broadcastInDim_apply _ h x (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A vector as a one-column matrix: entry `(p, u)` is the vector's entry `p`. -/
theorem vec_col_apply (x : (⟨1, ![m]⟩ : Shape).Idx → α) (h : (⟨1, ![m]⟩ : Shape).BroadcastsInDim ⟨2, ![m, 1]⟩ ![0])
    (p : Fin m) (u : Fin 1) : broadcastInDim ⟨2, ![m, 1]⟩ ![0] h x (ix2 p u) = x (ix1 p) :=
  broadcastInDim_apply _ h x (ix2 p u) (ix1 p) (fun a => match a with
    | ⟨0, _⟩ => by
      show p.val = if m = 1 then 0 else p.val
      split
      · have := p.isLt; omega
      · rfl)

/-- A one-column matrix repeated across the columns: entry `(p, k)` is the column's entry `(p, 0)`. -/
theorem col_cols_apply (x : (⟨2, ![m, 1]⟩ : Shape).Idx → α) (h : (⟨2, ![m, 1]⟩ : Shape).BroadcastsInDim ⟨2, ![m, n]⟩ ![0, 1])
    (p : Fin m) (k : Fin n) : broadcastInDim ⟨2, ![m, n]⟩ ![0, 1] h x (ix2 p k) = x (ix2 p 0) :=
  broadcastInDim_apply _ h x (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

/-- A rank-zero array repeated everywhere reads its one element. -/
theorem scalar_apply (t : Shape) (x : (⟨0, ![]⟩ : Shape).Idx → α) (h : (⟨0, ![]⟩ : Shape).BroadcastsInDim t ![]) (j : t.Idx) :
    broadcastInDim t ![] h x j = x (fun a => a.elim0) :=
  broadcastInDim_apply _ h x j (fun a => a.elim0) (fun a => a.elim0)

/-- A float word repeated everywhere, over the extended reals. -/
theorem word_apply (t : Shape) (w : BitVec 32) (h : (⟨0, ![]⟩ : Shape).BroadcastsInDim t ![]) (j : t.Idx) :
    broadcastInDim t ![] h (constant (F := Ideal) (⟨0, ![]⟩ : Shape) .f32 w) j = Ideal.ofBits .f32 w :=
  scalar_apply t _ h j

/-! ## Reductions over the column axis -/

/-- The row index `p` with column `k` put back is `(p, k)`. -/
theorem lift_row (h : (⟨2, ![m, n]⟩ : Shape).Reduces [1] (⟨1, ![m]⟩ : Shape)) (p : Fin m) (k : Fin n) :
    h.lift (ix1 p) k = ix2 p k := by
  funext c; apply Fin.ext
  fin_cases c <;> rfl

/-- The host's sum over the columns, at row `p`: the initial value plus the sum of the row. -/
theorem reduceAdd_row_apply (x : (⟨2, ![m, n]⟩ : Shape).Idx → EReal) (init : (⟨0, ![]⟩ : Shape).Idx → EReal)
    (h' : (⟨2, ![m, n]⟩ : Shape).ReducesTo [1] (⟨1, ![m]⟩ : Shape)) (hu : 0 < (⟨0, ![]⟩ : Shape).numel) (p : Fin m) :
    Host.reduceAdd (F := Ideal) (φ := .f32) x init h' hu (ix1 p) = init (Shape.Idx.first hu) + ∑ k : Fin n, x (ix2 p k) := by
  have hr : (⟨2, ![m, n]⟩ : Shape).Reduces [1] (⟨1, ![m]⟩ : Shape) := ⟨h'.1, Nat.one_pos, h'.2⟩
  simp only [Host.reduceAdd, Ideal.hostReduceAdd_def]
  rw [Ideal.hostReduceAdd_single h' hr]
  refine congrArg (_ + ·) (Finset.sum_congr rfl fun k _ => ?_)
  exact congrArg x (lift_row hr p k)

/-- The host's sum over the columns from the zero word, at row `p`: the sum of the row. -/
theorem reduceAdd_row_zero_apply (x : (⟨2, ![m, n]⟩ : Shape).Idx → EReal)
    (h' : (⟨2, ![m, n]⟩ : Shape).ReducesTo [1] (⟨1, ![m]⟩ : Shape)) (hu : 0 < (⟨0, ![]⟩ : Shape).numel) (p : Fin m) :
    Host.reduceAdd (F := Ideal) (φ := .f32) x (constant (F := Ideal) (⟨0, ![]⟩ : Shape) .f32 0x00000000#32) h' hu (ix1 p)
      = ∑ k : Fin n, x (ix2 p k) := by
  rw [reduceAdd_row_apply]
  show Ideal.ofBits .f32 0x00000000#32 + _ = _
  rw [Ideal.ofBits_zero_f32, zero_add]

/-- The word `-inf` is the least extended real. -/
theorem max_negInf (y : EReal) : max (Ideal.ofBits .f32 0xFF800000#32) y = y := by
  simp [Ideal.ofBits, Ideal.ieee]

/-- The host's fold of `max` over the columns from the word `-inf`, at row `p`: the fold over the row. -/
theorem reduceMax_row_apply (x : FVec Ideal ⟨2, ![m, n]⟩ .f32)
    (h' : (⟨2, ![m, n]⟩ : Shape).ReducesTo [1] (⟨1, ![m]⟩ : Shape)) (hu : 0 < (⟨0, ![]⟩ : Shape).numel) (p : Fin m) :
    Host.reduce (FloatOps.maximumf (F := Ideal) (φ := .f32)) x (constant (F := Ideal) (⟨0, ![]⟩ : Shape) .f32 0xFF800000#32) h' hu (ix1 p)
      = (Finset.univ : Finset (Fin n)).fold (max : EReal → EReal → EReal) (Ideal.ofBits .f32 0xFF800000#32 : EReal)
          (fun k => (x (ix2 p k) : EReal)) := by
  have hr : (⟨2, ![m, n]⟩ : Shape).Reduces [1] (⟨1, ![m]⟩ : Shape) := ⟨h'.1, Nat.one_pos, h'.2⟩
  refine (Host.reduce_eq_fold_single FloatOps.maximumf x _ h' hr hu (ix1 p)).trans ?_
  have hf : (x ∘ hr.lift (ix1 p)) = fun k : Fin n => x (ix2 p k) := funext fun k => congrArg x (lift_row hr p k)
  exact congrArg (fun f => Finset.fold max (Ideal.ofBits .f32 0xFF800000#32) f (Finset.univ : Finset (Fin n))) hf

/-- One more `max` with the word `-inf` repeated along a vector: at `p` the other operand's entry. -/
theorem maxWord_apply (r : FVec Ideal ⟨1, ![m]⟩ .f32) (h : (⟨0, ![]⟩ : Shape).BroadcastsInDim ⟨1, ![m]⟩ ![]) (p : Fin m) (v : EReal)
    (hr : r (ix1 p) = v) :
    maximumf (broadcastInDim ⟨1, ![m]⟩ ![] h (constant (F := Ideal) (⟨0, ![]⟩ : Shape) .f32 0xFF800000#32)) r (ix1 p) = v := by
  refine (congrArg₂ (max : EReal → EReal → EReal) (word_apply ⟨1, ![m]⟩ _ h (ix1 p)) hr).trans ?_
  exact max_negInf v

/-! ## Pointwise host operations -/

theorem hostLog_apply {s : Shape} (y : FVec Ideal s .f32) (i : s.Idx) : Host.log (F := Ideal) y i = Ideal.log (y i) := rfl
theorem hostExp_apply {s : Shape} (y : FVec Ideal s .f32) (i : s.Idx) : Host.exp (F := Ideal) y i = Ideal.exp (y i) := rfl
theorem hostRsqrt_apply {s : Shape} (y : FVec Ideal s .f32) (i : s.Idx) : Host.rsqrt (F := Ideal) y i = Ideal.rsqrt (y i) := rfl
theorem hostDivf_apply {s : Shape} (x y : FVec Ideal s .f32) (i : s.Idx) : Host.divf (F := Ideal) x y i = Ideal.div (x i) (y i) := rfl
theorem addf_apply {s : Shape} (x y : FVec Ideal s .f32) (i : s.Idx) : addf x y i = x i + y i := rfl
theorem subf_apply {s : Shape} (x y : FVec Ideal s .f32) (i : s.Idx) : subf x y i = x i - y i := rfl
theorem mulf_apply {s : Shape} (x y : FVec Ideal s .f32) (i : s.Idx) : mulf x y i = x i * y i := rfl
theorem maximumf_apply {s : Shape} (x y : FVec Ideal s .f32) (i : s.Idx) : maximumf x y i = max (x i) (y i) := rfl

end Cert.HostRead

end
-- ==== Proof.RowLogSoftmax.lean ====
/-
  The third tiled region: log-softmax of (agg + b2) along each row.

  Ten row tiles. At tile t the region loads rows 10000·t … 10000·t + 9999 of the aggregated logits (10 columns) and the
  bias as a one-row matrix, adds the bias to every row, subtracts the row's maximum (a lane reduction from -inf),
  exponentiates, sums along the row (a lane reduction from zero), and subtracts the logarithm of that sum. Row r of the
  output depends only on row r of the input, so each tile's block is the restriction of one whole-array function — the
  log-softmax of the biased row — and the ten blocks tile the output.
-/
import proofs.«116953_j52304111730991_1_alg».proof.Proof.Gen.KernelIdeal.Frame
import proofs.«116953_j52304111730991_1_alg».proof.Proof.SoftmaxRow
import proofs.«116953_j52304111730991_1_alg».proof.Proof.LibSameShapeCast
import proofs.«116953_j52304111730991_1_alg».proof.Proof.LibBroadcastTo
import proofs.«116953_j52304111730991_1_alg».proof.Proof.LibLayoutReads
import proofs.«116953_j52304111730991_1_alg».proof.Proof.LibRowSum
import proofs.«116953_j52304111730991_1_alg».proof.Proof.LibHostRead
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RowLogSoftmax

open Cert.KernelIdeal Cert.KernelIdeal.Gen Cert.SoftmaxRow
open Idealize.ShloMosaic Idealize.ShloMosaic.TcCoe Idealize.ShloMosaic.ValueIdx Idealize.SL.Sem
open Idealize.ShloMosaic.Pipeline (Dat)

/-- The log-softmax of every biased row of a 100000×10 matrix, entry by entry. -/
def lsm (agg : S100000x10.Idx → EReal) (b : S1x10.Idx → EReal) : S100000x10.Idx → EReal :=
  fun i => logSoftmax (fun k => agg (ix2 (i 0) k) + b (ix2 (0 : Fin 1) k)) (i 1)

theorem hz : (![0, 0] : Fin 2 → Nat) = fun _ => 0 := funext fun a => by fin_cases a <;> rfl

/-- The biased tile at an entry. -/
theorem biased_entry (x0 : Vec Ideal S10000x10 .f32) (x1 : Vec Ideal S1x10 .f32)
    (h1 : S10000x10.ShapeCasts S10000x10) (h2 : S1x10.ShapeCasts S1x10) (h3 : S1x10.Broadcasts S10000x10) (a : Fin 10000) (k : Fin 10) :
    (addf (F := Ideal) (φ := .f32) (shapeCast S10000x10 x0 h1) (broadcastTo S10000x10 (shapeCast S1x10 x1 h2) h3) : FVec Ideal S10000x10 .f32) (ix2 a k)
      = x0 (ix2 a k) + x1 (ix2 (0 : Fin 1) k) := by
  show shapeCast S10000x10 x0 h1 (ix2 a k) + broadcastTo S10000x10 (shapeCast S1x10 x1 h2) h3 (ix2 a k) = _
  rw [shapeCast_self, Cert.SameShapeCast.row_apply]

/-- The lane maximum of a tile, laid out as a column and repeated across the columns, at an entry: the row's maximum. -/
theorem rowmax_entry (z : FVec Ideal S10000x10 .f32) (h : S10000x10.Reduces [1] S10000) (hφ : FKind.Formats .f32)
    (hacc : (0xFF800000#32 : BitVec 32) = FKind.maximumf.neutral .f32 hφ)
    (hc : S10000.ShapeCasts S10000x1) (hb : S10000x1.Broadcasts S10000x10) (a : Fin 10000) (q : Fin 10) :
    broadcastTo S10000x10 (shapeCast S10000x1 (multiReduction .maximumf [1] S10000 z 0xFF800000#32 h hφ hacc) hc) hb (ix2 a q)
      = rowMax (fun k => z (ix2 a k)) := by
  rw [Cert.BroadcastTo.col_apply, Cert.LayoutReads.col_of_vec_apply]
  refine (Ideal.multiReduction_maximumf_single z _ h hφ hacc (ix1 a)).trans ?_
  have hf : (z ∘ h.lift (ix1 a)) = fun k : Fin 10 => z (ix2 a k) := funext fun k => congrArg z (LibRowSum.lift_row h a k)
  exact congrArg (fun f => Finset.fold max (Ideal.ofBits .f32 0xFF800000#32) f (Finset.univ : Finset (Fin 10))) hf

/-- The logarithm of the lane sum of a tile, laid out as a column and repeated across the columns, at an entry. -/
theorem logsum_entry (y : FVec Ideal S10000x10 .f32) (h : S10000x10.Reduces [1] S10000) (hφ : FKind.Formats .f32)
    (hacc : (0x00000000#32 : BitVec 32) = 0x00000000#32)
    (hc : S10000.ShapeCasts S10000x1) (hb : S10000x1.Broadcasts S10000x10) (a : Fin 10000) (q : Fin 10) :
    broadcastTo S10000x10 (log (shapeCast S10000x1 (multiReduction .add [1] S10000 y 0x00000000#32 h hφ hacc) hc)) hb (ix2 a q)
      = Ideal.log (∑ k : Fin 10, y (ix2 a k)) := by
  rw [Cert.BroadcastTo.col_apply]
  show Ideal.log (shapeCast S10000x1 (multiReduction .add [1] S10000 y 0x00000000#32 h hφ hacc) hc (ix2 a (0 : Fin 1))) = _
  rw [Cert.LayoutReads.col_of_vec_apply, LibRowSum.multiReduction_add_row]

/-- Subtract the row maximum, then the logarithm of the row's sum of exponentials: for ANY tile `Z` whose row `a` is
    `zr`, the stored entry (a, b) is the log-softmax of `zr` at b. -/
theorem lsm_of (Z : FVec Ideal S10000x10 .f32) (a : Fin 10000) (b : Fin 10) (zr : Fin 10 → EReal) (hZ : ∀ k, Z (ix2 a k) = zr k)
    (h : S10000x10.Reduces [1] S10000) (hφ : FKind.Formats .f32)
    (hm : (0xFF800000#32 : BitVec 32) = FKind.maximumf.neutral .f32 hφ) (hs : (0x00000000#32 : BitVec 32) = 0x00000000#32)
    (hc : S10000.ShapeCasts S10000x1) (hb : S10000x1.Broadcasts S10000x10) :
    (subf (F := Ideal) (subf (F := Ideal) Z (broadcastTo S10000x10 (shapeCast S10000x1 (multiReduction .maximumf [1] S10000 Z 0xFF800000#32 h hφ hm) hc) hb))
      (broadcastTo S10000x10 (log (shapeCast S10000x1 (multiReduction .add [1] S10000
          (exp (subf (F := Ideal) Z (broadcastTo S10000x10 (shapeCast S10000x1 (multiReduction .maximumf [1] S10000 Z 0xFF800000#32 h hφ hm) hc) hb)))
          0x00000000#32 h hφ hs) hc)) hb) : FVec Ideal S10000x10 .f32) (ix2 a b)
      = logSoftmax zr b := by
  have hrow : (fun k : Fin 10 => Z (ix2 a k)) = zr := funext hZ
  have hM : ∀ q : Fin 10, broadcastTo S10000x10 (shapeCast S10000x1 (multiReduction .maximumf [1] S10000 Z 0xFF800000#32 h hφ hm) hc) hb (ix2 a q)
      = rowMax zr := fun q => by rw [rowmax_entry, hrow]
  rw [Cert.HostRead.subf_apply, Cert.HostRead.subf_apply, logsum_entry, hM, hZ]
  unfold logSoftmax
  refine congrArg (fun s => (zr b - rowMax zr) - Ideal.log s) (Finset.sum_congr rfl fun k _ => ?_)
  show Ideal.exp (Z (ix2 a k) - broadcastTo S10000x10 (shapeCast S10000x1 (multiReduction .maximumf [1] S10000 Z 0xFF800000#32 h hφ hm) hc) hb (ix2 a k)) = _
  rw [hM, hZ]

/-- One tile's stored value at an entry: the log-softmax of the biased row. -/
theorem tile_entry (x0 : Vec Ideal S10000x10 .f32) (x1 : Vec Ideal S1x10 .f32) (a : Fin 10000) (b : Fin 10) :
    k2_pay1 (F := Ideal) x0 x1 (ix2 a b) = logSoftmax (fun k => x0 (ix2 a k) + x1 (ix2 (0 : Fin 1) k)) b := by
  unfold k2_pay1
  dsimp only
  exact lsm_of _ a b _ (fun k => biased_entry x0 x1 _ _ _ a k) _ _ _ _ _ _

/-- The windows' block indices over the grid: the input rows and the output rows sit at row block t; the bias at
    block (0, 0). -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What tile t writes back is block t of the row-wise log-softmax of the arrays the region finds. -/
theorem flushed_eq (c : Dev nD) (t : Fin cfg2.N) :
    (dat2 V c).flushed 2 t = ((cfg2.win 2).blk t).view.read (Elt Ideal) (lsm (V c main_v58) (V c main_v59)) := by
  show (cfg2.win 2).cut (grid2.coords t) ((dat2 V c).after 2 t) = _
  rw [after2_2]
  unfold out2_2
  rw [View.canon_unit_zero hz]
  simp only [View.ld_unit_zero (S := S10000x10) hz, View.ld_unit_zero (S := S1x10) hz]
  obtain ⟨e0, e1, e2, e3, e4, e5⟩ := idx_facts t
  funext j
  obtain ⟨a, b, rfl⟩ : ∃ (a : Fin 10000) (b : Fin 10), j = ix2 a b := ⟨j 0, j 1, eq_ix2 j⟩
  show k2_pay1 (iblk2 V c 0 t) (iblk2 V c 1 t) (ix2 a b) = lsm (V c main_v58) (V c main_v59) (((cfg2.win 2).blk t).view.emb (ix2 a b))
  rw [tile_entry]
  unfold lsm
  have h0 : ∀ k : Fin 10, ((cfg2.win 0).blk t).view.emb (ix2 a k) = ix2 ((((cfg2.win 2).blk t).view.emb (ix2 a b)) 0) k := fun k => by
    funext ax; apply Fin.ext
    match ax with
    | ⟨0, _⟩ => show win2_0.index t (0 : Fin 2) * 10000 + 1 * a.val = win2_2.index t (0 : Fin 2) * 10000 + 1 * a.val; omega
    | ⟨1, _⟩ => show win2_0.index t (1 : Fin 2) * 10 + 1 * k.val = k.val; omega
  have h1 : ∀ k : Fin 10, ((cfg2.win 1).blk t).view.emb (ix2 (0 : Fin 1) k) = ix2 (0 : Fin 1) k := fun k => by
    funext ax; apply Fin.ext
    match ax with
    | ⟨0, _⟩ => show win2_1.index t (0 : Fin 2) * 1 + 1 * 0 = 0; omega
    | ⟨1, _⟩ => show win2_1.index t (1 : Fin 2) * 10 + 1 * k.val = k.val; omega
  have hcol : (((cfg2.win 2).blk t).view.emb (ix2 a b)) 1 = b := by
    apply Fin.ext
    show win2_2.index t (1 : Fin 2) * 10 + 1 * b.val = b.val; omega
  refine congrArg₂ logSoftmax (funext fun k => ?_) hcol.symm
  exact congrArg₂ _ (congrArg (V c main_v58) (h0 k)) (congrArg (V c main_v59) (h1 k))

/-- An index of the output is in tile t's block iff its row is among the tile's rows. -/
theorem mem_blk (t : Fin cfg2.N) (i : S100000x10.Idx) :
    i ∈ ((cfg2.win 2).blk t).view.set ↔ ∀ a : Fin 2, win2_2.index t a * S10000x10.size a ≤ (i a).val ∧ (i a).val < win2_2.index t a * S10000x10.size a + S10000x10.size a := by
  show i ∈ ((View.whole main_v60).slice (win2_2.rect t)).set ↔ _
  rw [View.set_slice_whole, Rect.mem_set_unit]
  exact Iff.rfl

/-- Every output index lies in the block of the tile that holds its row. -/
theorem cover (i : S100000x10.Idx) : ∃ t : Fin cfg2.N, (cfg2.win 2).flush t = true ∧ i ∈ ((cfg2.win 2).blk t).view.set := by
  have hi0 : (i 0).val < 100000 := (i 0).isLt
  have hi1 : (i 1).val < 10 := (i 1).isLt
  have hN : cfg2.N = 10 := N_2
  refine ⟨⟨(i 0).val / 10000, by rw [hN]; omega⟩, flush2_2 _, ?_⟩
  rw [mem_blk]
  obtain ⟨-, -, -, -, e4, e5⟩ := idx_facts ⟨(i 0).val / 10000, by rw [hN]; omega⟩
  intro a
  match a with
  | ⟨0, _⟩ => show win2_2.index _ (0 : Fin 2) * 10000 ≤ (i 0).val ∧ (i 0).val < win2_2.index _ (0 : Fin 2) * 10000 + 10000; rw [e4]; show (i 0).val / 10000 * 10000 ≤ _ ∧ _ < (i 0).val / 10000 * 10000 + 10000; omega
  | ⟨1, _⟩ => show win2_2.index _ (1 : Fin 2) * 10 ≤ (i 1).val ∧ (i 1).val < win2_2.index _ (1 : Fin 2) * 10 + 10; rw [e5]; omega

/-- When the region ends its output array holds the row-wise log-softmax of the two input arrays as the region found them. -/
theorem final (c : Dev nD) : (dat2 V c).arrAt 2 cfg2.N = lsm (V c main_v58) (V c main_v59) :=
  (dat2 V c).arrAt_eq_of_cover 2 (lsm (V c main_v58) (V c main_v59)) (fun t _ => flushed_eq V c t) cover

end Cert.KernelIdeal.RowLogSoftmax

end
-- ==== Proof.KernelChain.lean ====
/-
  The idealized kernel's later boundaries, read back.

  After the host preamble (KernelPre) the kernel's @main alternates tiled regions and host stretches. This module
  reads the arrays that matter at each later boundary, as functions of the argument arrays as launched
  (x, the edge array e, W1, b1, W2, b2):

    after the first region         x·W1                                              (Linear1)
    after the first propagate      prop20 (src e) (dst e) (edgeW e) (x·W1);  b1 laid out as a one-row matrix
    after the second region        relu(agg1 + b1)·W2 of those                        (Linear2)
    after the second propagate     prop10 … of that;                           b2 laid out as a one-row matrix
    after the third region         the row-wise log-softmax of agg2 + b2             (RowLogSoftmax)

  A region leaves its output array at the region's whole-array function and every other buffer as it was; a host
  stretch is a fold of its operations' results, and does not touch the graph side computed by the preamble.
-/
import proofs.«116953_j52304111730991_1_alg».proof.Proof.KernelPre
import proofs.«116953_j52304111730991_1_alg».proof.Proof.Linear1
import proofs.«116953_j52304111730991_1_alg».proof.Proof.Linear2
import proofs.«116953_j52304111730991_1_alg».proof.Proof.RowLogSoftmax
import proofs.«116953_j52304111730991_1_alg».proof.Proof.LibLayoutReads

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The graph side is still there after each region and each later stretch -/

theorem W4_src : W4 m ρ c (Proc.devRef .tc main_v3) = Cert.Gcn.src (m ((c : Thread nD τ).loc main_arg1)) :=
  (W4_of_ne m ρ c main_v3 (by decide)).trans (pre_src m ρ c)
theorem W4_dst : W4 m ρ c (Proc.devRef .tc main_v6) = Cert.Gcn.dst (m ((c : Thread nD τ).loc main_arg1)) :=
  (W4_of_ne m ρ c main_v6 (by decide)).trans (pre_dst m ρ c)
theorem W4_w : W4 m ρ c (Proc.devRef .tc main_v29) = Cert.Gcn.edgeW (m ((c : Thread nD τ).loc main_arg1)) :=
  (W4_of_ne m ρ c main_v29 (by decide)).trans (pre_w m ρ c)
theorem W4_b1 : W4 m ρ c (Proc.devRef .tc main_arg3) = m ((c : Thread nD τ).loc main_arg3) :=
  (W4_of_ne m ρ c main_arg3 (by decide)).trans (W3_b1 m ρ c)
theorem W4_w2 : W4 m ρ c (Proc.devRef .tc main_arg4) = m ((c : Thread nD τ).loc main_arg4) :=
  (W4_of_ne m ρ c main_arg4 (by decide)).trans (W3_w2 m ρ c)
theorem W4_b2 : W4 m ρ c (Proc.devRef .tc main_arg5) = m ((c : Thread nD τ).loc main_arg5) :=
  (W4_of_ne m ρ c main_arg5 (by decide)).trans (W3_b2 m ρ c)

/-! ## The first region and the first propagate -/

/-- After the first region its output array is x·W1. -/
theorem lin1 : W4 m ρ c (Proc.devRef .tc main_v30)
    = Cert.KernelIdeal.Linear1.xw (m ((c : Thread nD τ).loc main_arg0)) (m ((c : Thread nD τ).loc main_arg2)) :=
  ((W4_arr m ρ c 2).trans (Cert.KernelIdeal.Linear1.final (V3 m ρ) c)).trans
    (congrArg₂ Cert.KernelIdeal.Linear1.xw (W3_x m ρ c) (W3_w1 m ρ c))

set_option maxHeartbeats 4000000 in
/-- After the first propagate: the aggregated 20-column features. -/
theorem agg1 : W5 m ρ c (Proc.devRef .tc main_v43)
    = Cert.Gcn.prop20 (Cert.Gcn.src (m ((c : Thread nD τ).loc main_arg1))) (Cert.Gcn.dst (m ((c : Thread nD τ).loc main_arg1)))
        (Cert.Gcn.edgeW (m ((c : Thread nD τ).loc main_arg1)))
        (Cert.KernelIdeal.Linear1.xw (m ((c : Thread nD τ).loc main_arg0)) (m ((c : Thread nD τ).loc main_arg2))) := by
  dsimp only [W5, hostOps1]
  after_results
  rw [W4_w, W4_src, W4_dst, lin1]
  generalize Cert.KernelIdeal.Linear1.xw _ _ = X
  rfl

/-- The first bias as the one-row matrix the second region loads: entry (0, k) is b1 k. -/
theorem b1row (k : Fin 20) :
    (W5 m ρ c (Proc.devRef .tc main_v44) : S1x20.Idx → EReal) (ix2 (0 : Fin 1) k) = (m ((c : Thread nD τ).loc main_arg3) : S20.Idx → EReal) (ix1 k) := by
  dsimp only [W5, hostOps1]
  after_results
  show shapeCast S1x20 (W4 m ρ c (Proc.devRef .tc main_arg3)) Cert.KernelIdeal.Facts₀.shapeCasts_S20_S1x20 (ix2 (0 : Fin 1) k) = _
  rw [Cert.LayoutReads.row_of_vec_apply, W4_b1]

theorem W5_w2 : W5 m ρ c (Proc.devRef .tc main_arg4) = m ((c : Thread nD τ).loc main_arg4) := by
  dsimp only [W5, hostOps1]
  after_results
  exact W4_w2 m ρ c

/-! ## The second region and the second propagate -/

/-- After the second region its output array is relu(agg1 + b1)·W2 of the arrays the region found. -/
theorem lin2 : W6 m ρ c (Proc.devRef .tc main_v45)
    = Cert.KernelIdeal.Linear2.hw (W5 m ρ c (Proc.devRef .tc main_v43)) (W5 m ρ c (Proc.devRef .tc main_v44)) (m ((c : Thread nD τ).loc main_arg4)) :=
  ((W6_arr m ρ c 3).trans (Cert.KernelIdeal.Linear2.final (V5 m ρ) c)).trans
    (congrArg (Cert.KernelIdeal.Linear2.hw (W5 m ρ c (Proc.devRef .tc main_v43)) (W5 m ρ c (Proc.devRef .tc main_v44))) (W5_w2 m ρ c))

theorem W6_src : W6 m ρ c (Proc.devRef .tc main_v3) = Cert.Gcn.src (m ((c : Thread nD τ).loc main_arg1)) := by
  refine (W6_of_ne m ρ c main_v3 (by decide)).trans ?_
  dsimp only [W5, hostOps1]
  after_results
  exact W4_src m ρ c
theorem W6_dst : W6 m ρ c (Proc.devRef .tc main_v6) = Cert.Gcn.dst (m ((c : Thread nD τ).loc main_arg1)) := by
  refine (W6_of_ne m ρ c main_v6 (by decide)).trans ?_
  dsimp only [W5, hostOps1]
  after_results
  exact W4_dst m ρ c
theorem W6_w : W6 m ρ c (Proc.devRef .tc main_v29) = Cert.Gcn.edgeW (m ((c : Thread nD τ).loc main_arg1)) := by
  refine (W6_of_ne m ρ c main_v29 (by decide)).trans ?_
  dsimp only [W5, hostOps1]
  after_results
  exact W4_w m ρ c
theorem W6_b2 : W6 m ρ c (Proc.devRef .tc main_arg5) = m ((c : Thread nD τ).loc main_arg5) := by
  refine (W6_of_ne m ρ c main_arg5 (by decide)).trans ?_
  dsimp only [W5, hostOps1]
  after_results
  exact W4_b2 m ρ c

set_option maxHeartbeats 4000000 in
/-- After the second propagate: the aggregated 10-column logits. -/
theorem agg2 : W7 m ρ c (Proc.devRef .tc main_v58)
    = Cert.Gcn.prop10 (Cert.Gcn.src (m ((c : Thread nD τ).loc main_arg1))) (Cert.Gcn.dst (m ((c : Thread nD τ).loc main_arg1)))
        (Cert.Gcn.edgeW (m ((c : Thread nD τ).loc main_arg1))) (W6 m ρ c (Proc.devRef .tc main_v45)) := by
  dsimp only [W7, hostOps2]
  after_results
  rw [W6_w, W6_src, W6_dst]
  generalize W6 m ρ c (Proc.devRef .tc main_v45) = X
  rfl

/-- The second bias as the one-row matrix the third region loads: entry (0, k) is b2 k. -/
theorem b2row (k : Fin 10) :
    (W7 m ρ c (Proc.devRef .tc main_v59) : S1x10.Idx → EReal) (ix2 (0 : Fin 1) k) = (m ((c : Thread nD τ).loc main_arg5) : S10.Idx → EReal) (ix1 k) := by
  dsimp only [W7, hostOps2]
  after_results
  show shapeCast S1x10 (W6 m ρ c (Proc.devRef .tc main_arg5)) Cert.KernelIdeal.Facts₀.shapeCasts_S10_S1x10 (ix2 (0 : Fin 1) k) = _
  rw [Cert.LayoutReads.row_of_vec_apply, W6_b2]

/-! ## The third region: the result -/

/-- The result buffer at the end of the run: the row-wise log-softmax of the arrays the third region found. -/
theorem out : W8 m ρ c (Proc.devRef .tc main_v60)
    = Cert.KernelIdeal.RowLogSoftmax.lsm (W7 m ρ c (Proc.devRef .tc main_v58)) (W7 m ρ c (Proc.devRef .tc main_v59)) :=
  (W8_arr m ρ c 2).trans (Cert.KernelIdeal.RowLogSoftmax.final (V7 m ρ) c)

end Cert.KernelIdeal.Chain

end
-- ==== Proof.RefFold.lean ====
/-
  The reference's run, cut into stretches.

  The reference is one straight line of 98 host operations, so after its run every buffer holds the fold of the
  operations' results over the launch contents. Several intermediate arrays (the source and target index vectors, the edge
  weights) are read many times, so the fold is not written out as one term: it is cut at the same places where the
  kernel's @main is cut by its three tiled regions,

      preamble (three pieces: up to the degree's reciprocal root; the `where`; the edge weights)
      | x·W1 | propagate | bias, relu, ·W2 | propagate | bias, log-softmax,

  and `Rk` names every buffer's contents after the first k pieces. The fold of a concatenation is the fold of the
  second list over the fold of the first.
-/
import proofs.«116953_j52304111730991_1_alg».proof.Proof.RefRunPatched

noncomputable section

namespace Cert.ReferenceIdeal.Fold

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- Folding a concatenation: first the first list, then the second over what it leaves. -/
theorem after_append (A B : List (HloOp τ sig (Elt F))) (V : Valuation τ sig (Elt F)) :
    after (A ++ B) V = after B (after A V) := by
  induction A generalizing V with
  | nil => rfl
  | cons a A ih => simp only [List.cons_append, after_cons, ih]

/-- The `n` operations of @main from position `i` on. -/
def piece (i n : Nat) : List (HloOp τ sig (Elt F)) := (ops.drop i).take n

/-- @main's 98 operations are these eight pieces in order. -/
theorem ops_cut : (ops : List (HloOp τ sig (Elt F)))
    = piece 0 18 ++ (piece 18 3 ++ (piece 21 19 ++ (piece 40 1 ++ (piece 41 16 ++ (piece 57 7 ++ (piece 64 16 ++ piece 80 18)))))) := rfl

variable (m : (ℓ : Loc nD τ sig) → Buf (Elt F) ℓ) (c : Dev nD)

/-- After the index vectors, the degree and its reciprocal root. -/
def R1 : Valuation τ sig (Elt F) := after (piece 0 18) (launchContents m c)
/-- After the `where` that zeroes the reciprocal root at nodes of degree zero. -/
def R2 : Valuation τ sig (Elt F) := after (piece 18 3) (R1 m c)
/-- After the edge weights. -/
def R3 : Valuation τ sig (Elt F) := after (piece 21 19) (R2 m c)
/-- After x·W1. -/
def R4 : Valuation τ sig (Elt F) := after (piece 40 1) (R3 m c)
/-- After the first propagate. -/
def R5 : Valuation τ sig (Elt F) := after (piece 41 16) (R4 m c)
/-- After bias, relu and ·W2. -/
def R6 : Valuation τ sig (Elt F) := after (piece 57 7) (R5 m c)
/-- After the second propagate. -/
def R7 : Valuation τ sig (Elt F) := after (piece 64 16) (R6 m c)
/-- After bias and log-softmax: the end of the run. -/
def R8 : Valuation τ sig (Elt F) := after (piece 80 18) (R7 m c)

/-- The run's result is the last boundary's contents at the result buffer. -/
theorem res_eq : res_main_v65 m c = R8 m c (Proc.devRef .tc main_v65) := by
  unfold res_main_v65 R8 R7 R6 R5 R4 R3 R2 R1
  conv_lhs => rw [ops_cut]
  simp only [after_append]

end Cert.ReferenceIdeal.Fold

end
-- ==== Proof.RefPre.lean ====
/-
  The reference's host preamble, read back.

  The reference is one line of host operations, cut (RefFold) at the places where the kernel has its three tiled
  regions. This module reads the arrays the rest of the program uses after the preamble's three pieces, as functions of
  the argument arrays as launched: the five float arguments unchanged, and from the edge array e the graph side of
  GcnSpec — src e, dst e, and the edge weights edgeW e (through dis e, read after the second piece).
-/
import proofs.«116953_j52304111730991_1_alg».proof.Proof.RefFold
import proofs.«116953_j52304111730991_1_alg».proof.Proof.GcnSpec

set_option maxRecDepth 16384

noncomputable section

namespace Cert.ReferenceIdeal.Chain

open Cert.ReferenceIdeal Cert.ReferenceIdeal.Value Cert.ReferenceIdeal.Fold
open Idealize.ShloMosaic Idealize.ShloMosaic.TcCoe Idealize.SL.Sem Idealize.ShloMosaic.StableHlo

variable (m : (ℓ : Loc nD τ sig) → Buf (Elt Ideal) ℓ) (c : Dev nD)

/-- Spell a piece out as the literal list of its operations, then read the buffer through it. -/
macro "read_piece" : tactic =>
  `(tactic| (simp only [Cert.ReferenceIdeal.Fold.piece, Cert.ReferenceIdeal.Value.ops, List.drop_succ_cons, List.drop_zero, List.take_succ_cons, List.take_zero]
             after_results))

/-! ## The arguments are as launched after the preamble -/

theorem R3_x : R3 m c (Proc.devRef .tc main_arg0) = m ((c.tc : Thread nD τ).loc main_arg0) := by
  unfold R3 R2 R1; read_piece; try rfl
theorem R3_w1 : R3 m c (Proc.devRef .tc main_arg2) = m ((c.tc : Thread nD τ).loc main_arg2) := by
  unfold R3 R2 R1; read_piece; try rfl
theorem R3_b1 : R3 m c (Proc.devRef .tc main_arg3) = m ((c.tc : Thread nD τ).loc main_arg3) := by
  unfold R3 R2 R1; read_piece; try rfl
theorem R3_w2 : R3 m c (Proc.devRef .tc main_arg4) = m ((c.tc : Thread nD τ).loc main_arg4) := by
  unfold R3 R2 R1; read_piece; try rfl
theorem R3_b2 : R3 m c (Proc.devRef .tc main_arg5) = m ((c.tc : Thread nD τ).loc main_arg5) := by
  unfold R3 R2 R1; read_piece; try rfl

/-! ## The graph side -/

theorem R2_src : R2 m c (Proc.devRef .tc main_v3) = Cert.Gcn.src (m ((c.tc : Thread nD τ).loc main_arg1)) := by
  unfold R2 R1; read_piece; try rfl
theorem R2_dst : R2 m c (Proc.devRef .tc main_v6) = Cert.Gcn.dst (m ((c.tc : Thread nD τ).loc main_arg1)) := by
  unfold R2 R1; read_piece; try rfl
/-- The degree, after the first piece. -/
theorem R1_deg : R1 m c (Proc.devRef .tc main_v10) = Cert.Gcn.deg (m ((c.tc : Thread nD τ).loc main_arg1)) := by
  unfold R1; read_piece; rfl
/-- Where the degree is positive. -/
theorem R1_pos : R1 m c (Proc.devRef .tc main_v12)
    = cmpf (F := Ideal) (φ := .f32) .ogt (Cert.Gcn.deg (m ((c.tc : Thread nD τ).loc main_arg1)))
        (broadcastInDim S100000 ![] Cert.ReferenceIdeal.Facts₀.bcast_S_S100000 (constant (F := Ideal) S_ .f32 0x00000000#32)) := by
  unfold R1; read_piece; rfl
/-- The degree's reciprocal square root. -/
theorem R1_rsqrt : R1 m c (Proc.devRef .tc main_v13)
    = Host.rsqrt (F := Ideal) (φ := .f32) (Cert.Gcn.deg (m ((c.tc : Thread nD τ).loc main_arg1))) := by
  unfold R1; read_piece; rfl
theorem R1_zero : R1 m c (Proc.devRef .tc main_cst_2) = constant (F := Ideal) S_ .f32 0x00000000#32 := by
  unfold R1; read_piece; try rfl
/-- The `where`: the reciprocal root where the degree is positive, zero elsewhere. -/
theorem R2_dis : R2 m c (Proc.devRef .tc main_v14) = Cert.Gcn.dis (m ((c.tc : Thread nD τ).loc main_arg1)) := by
  have h : R2 m c (Proc.devRef .tc main_v14)
      = select (R1 m c (Proc.devRef .tc main_v12)) (R1 m c (Proc.devRef .tc main_v13))
          (broadcastInDim S100000 ![] Cert.ReferenceIdeal.Facts₀.bcast_S_S100000 (id (R1 m c (Proc.devRef .tc main_cst_2)))) := by
    unfold R2
    generalize hV : R1 m c = V
    read_piece
    rfl
  rw [h, R1_pos, R1_rsqrt, R1_zero]
  rfl

theorem pre_src : R3 m c (Proc.devRef .tc main_v3) = Cert.Gcn.src (m ((c.tc : Thread nD τ).loc main_arg1)) := by
  unfold R3; read_piece; exact R2_src m c
theorem pre_dst : R3 m c (Proc.devRef .tc main_v6) = Cert.Gcn.dst (m ((c.tc : Thread nD τ).loc main_arg1)) := by
  unfold R3; read_piece; exact R2_dst m c
set_option maxHeartbeats 4000000 in
theorem pre_w : R3 m c (Proc.devRef .tc main_v29) = Cert.Gcn.edgeW (m ((c.tc : Thread nD τ).loc main_arg1)) := by
  unfold R3; read_piece
  rw [R2_dis, R2_src, R2_dst]
  rfl

end Cert.ReferenceIdeal.Chain

end
-- ==== Proof.RefChain.lean ====
/-
  The reference's later boundaries, read back.

  After the preamble (RefPre) the reference's line of host operations goes on with x·W1, the first propagate, bias /
  relu / ·W2, the second propagate, and bias / log-softmax. This module reads the arrays that matter after each piece,
  as functions of the argument arrays as launched. The graph side computed by the preamble is not written again.
-/
import proofs.«116953_j52304111730991_1_alg».proof.Proof.RefPre
import proofs.«116953_j52304111730991_1_alg».proof.Proof.SoftmaxRow
import proofs.«116953_j52304111730991_1_alg».proof.Proof.LibPlainProduct
import proofs.«116953_j52304111730991_1_alg».proof.Proof.LibHostRead
import Idealize.ShloMosaic.Lib.ValueIdx

set_option maxRecDepth 16384

noncomputable section

open scoped BigOperators

namespace Cert.ReferenceIdeal.Chain

open Cert.ReferenceIdeal Cert.ReferenceIdeal.Value Cert.ReferenceIdeal.Fold Cert.SoftmaxRow
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- The float arguments as launched, and the arrays after each later piece, as extended-real arrays. -/
abbrev xA : S100000x128.Idx → EReal := m ((c.tc : Thread nD τ).loc main_arg0)
abbrev w1A : S128x20.Idx → EReal := m ((c.tc : Thread nD τ).loc main_arg2)
abbrev b1A : S20.Idx → EReal := m ((c.tc : Thread nD τ).loc main_arg3)
abbrev w2A : S20x10.Idx → EReal := m ((c.tc : Thread nD τ).loc main_arg4)
abbrev b2A : S10.Idx → EReal := m ((c.tc : Thread nD τ).loc main_arg5)
abbrev lin1A : S100000x20.Idx → EReal := R4 m c (Proc.devRef .tc main_v30)
abbrev agg1A : S100000x20.Idx → EReal := R5 m c (Proc.devRef .tc main_v43)
abbrev lin2A : S100000x10.Idx → EReal := R6 m c (Proc.devRef .tc main_v48)
abbrev agg2A : S100000x10.Idx → EReal := R7 m c (Proc.devRef .tc main_v61)
abbrev outA : S100000x10.Idx → EReal := R8 m c (Proc.devRef .tc main_v65)

/-- A call body's typed reference: contents put into the buffer's type and read back out are unchanged. -/
theorem ofBuf_toBuf {T : BufTy} (x : TRef sig T) (v : T.Contents (Elt Ideal)) : x.ofBuf (x.toBuf v) = v := by
  simp only [TRef.ofBuf, TRef.toBuf, cast_cast, cast_eq]

/-- At the four places where a call body meets the rest of the line, the typed reference's type is the buffer's own:
    putting contents in, or reading them out, changes nothing. -/
theorem relu_in (X : (⟨S100000x20, .f32⟩ : BufTy).Contents (Elt Ideal)) :
    (TRef.of (T := ⟨S100000x20, .f32⟩) main_v46).ofBuf X = X := rfl
theorem relu_out (Y : (⟨S100000x20, .f32⟩ : BufTy).Contents (Elt Ideal)) :
    (TRef.of (T := ⟨S100000x20, .f32⟩) main_v47).toBuf Y = Y := rfl
theorem lsm_in (X : (⟨S100000x10, .f32⟩ : BufTy).Contents (Elt Ideal)) :
    (TRef.of (T := ⟨S100000x10, .f32⟩) main_v64).ofBuf X = X := rfl
theorem lsm_out (Y : (⟨S100000x10, .f32⟩ : BufTy).Contents (Elt Ideal)) :
    (TRef.of (T := ⟨S100000x10, .f32⟩) main_v65).toBuf Y = Y := rfl

/-! ## x·W1, and what the product leaves alone -/

theorem R4_src : R4 m c (Proc.devRef .tc main_v3) = Cert.Gcn.src (m ((c.tc : Thread nD τ).loc main_arg1)) := by
  unfold R4; read_piece; exact pre_src m c
theorem R4_dst : R4 m c (Proc.devRef .tc main_v6) = Cert.Gcn.dst (m ((c.tc : Thread nD τ).loc main_arg1)) := by
  unfold R4; read_piece; exact pre_dst m c
theorem R4_w : R4 m c (Proc.devRef .tc main_v29) = Cert.Gcn.edgeW (m ((c.tc : Thread nD τ).loc main_arg1)) := by
  unfold R4; read_piece; exact pre_w m c
theorem R4_b1 : R4 m c (Proc.devRef .tc main_arg3) = m ((c.tc : Thread nD τ).loc main_arg3) := by
  unfold R4; read_piece; exact R3_b1 m c
theorem R4_w2 : R4 m c (Proc.devRef .tc main_arg4) = m ((c.tc : Thread nD τ).loc main_arg4) := by
  unfold R4; read_piece; exact R3_w2 m c
theorem R4_b2 : R4 m c (Proc.devRef .tc main_arg5) = m ((c.tc : Thread nD τ).loc main_arg5) := by
  unfold R4; read_piece; exact R3_b2 m c

/-- The host's matrix product of x and W1, at an entry. -/
theorem lin1_entry (p : Fin 100000) (q : Fin 20) :
    lin1A m c (ix2 p q) = ∑ k : Fin 128, xA m c (ix2 p k) * w1A m c (ix2 k q) := by
  unfold lin1A R4; read_piece
  rw [R3_x, R3_w1]
  exact PlainProduct.dotGeneral_apply Cert.ReferenceIdeal.Facts₀.dot_S100000x128_S128x20_S100000x20_1_0_0_1_n_n_wf none _ _ p q

/-! ## The first propagate -/

set_option maxHeartbeats 4000000 in
/-- After the first propagate: the aggregated 20-column features. -/
theorem agg1 : R5 m c (Proc.devRef .tc main_v43)
    = Cert.Gcn.prop20 (Cert.Gcn.src (m ((c.tc : Thread nD τ).loc main_arg1))) (Cert.Gcn.dst (m ((c.tc : Thread nD τ).loc main_arg1)))
        (Cert.Gcn.edgeW (m ((c.tc : Thread nD τ).loc main_arg1))) (R4 m c (Proc.devRef .tc main_v30)) := by
  unfold R5; read_piece
  rw [R4_w, R4_src, R4_dst]
  generalize R4 m c (Proc.devRef .tc main_v30) = X
  rfl

theorem R5_src : R5 m c (Proc.devRef .tc main_v3) = Cert.Gcn.src (m ((c.tc : Thread nD τ).loc main_arg1)) := by
  unfold R5; read_piece; exact R4_src m c
theorem R5_dst : R5 m c (Proc.devRef .tc main_v6) = Cert.Gcn.dst (m ((c.tc : Thread nD τ).loc main_arg1)) := by
  unfold R5; read_piece; exact R4_dst m c
theorem R5_w : R5 m c (Proc.devRef .tc main_v29) = Cert.Gcn.edgeW (m ((c.tc : Thread nD τ).loc main_arg1)) := by
  unfold R5; read_piece; exact R4_w m c
theorem R5_b1 : R5 m c (Proc.devRef .tc main_arg3) = m ((c.tc : Thread nD τ).loc main_arg3) := by
  unfold R5; read_piece; exact R4_b1 m c
theorem R5_w2 : R5 m c (Proc.devRef .tc main_arg4) = m ((c.tc : Thread nD τ).loc main_arg4) := by
  unfold R5; read_piece; exact R4_w2 m c
theorem R5_b2 : R5 m c (Proc.devRef .tc main_arg5) = m ((c.tc : Thread nD τ).loc main_arg5) := by
  unfold R5; read_piece; exact R4_b2 m c

/-! ## Bias, relu, ·W2 -/

/-- The host's bias, clamp at zero and matrix product, at an entry: for any 20-column matrix and any bias vector. -/
theorem host_hw_entry (agg : FVec Ideal S100000x20 .f32) (b : FVec Ideal S20 .f32) (w : FVec Ideal S20x10 .f32)
    (h1 : S20.BroadcastsInDim S1x20 ![1]) (h2 : S1x20.BroadcastsInDim S100000x20 ![0, 1]) (h3 : S_.BroadcastsInDim S100000x20 ![])
    (p : Fin 100000) (q : Fin 10) :
    Host.dotGeneral (F := Ideal) dot_S100000x20_S20x10_S100000x10_1_0_0_1_n_n none
        (maximumf (F := Ideal) (φ := .f32) (addf (F := Ideal) (φ := .f32) agg (broadcastInDim S100000x20 ![0, 1] h2 (broadcastInDim S1x20 ![1] h1 b)))
          (broadcastInDim S100000x20 ![] h3 (constant (F := Ideal) S_ .f32 0x00000000#32)))
        w (ix2 p q)
      = ∑ k : Fin 20, max (agg (ix2 p k) + b (ix1 k)) (Ideal.ofBits .f32 0x00000000#32) * w (ix2 k q) := by
  refine (PlainProduct.dotGeneral_apply Cert.ReferenceIdeal.Facts₀.dot_S100000x20_S20x10_S100000x10_1_0_0_1_n_n_wf none _ _ p q).trans ?_
  refine Finset.sum_congr rfl fun k _ => ?_
  refine congrArg (· * w (ix2 k q)) ?_
  show max (agg (ix2 p k) + broadcastInDim S100000x20 ![0, 1] h2 (broadcastInDim S1x20 ![1] h1 b) (ix2 p k))
      (broadcastInDim S100000x20 ![] h3 (constant (F := Ideal) S_ .f32 0x00000000#32) (ix2 p k)) = _
  rw [Cert.HostRead.row_rows_apply, Cert.HostRead.vec_row_apply, Cert.HostRead.word_apply]

theorem R6_src : R6 m c (Proc.devRef .tc main_v3) = Cert.Gcn.src (m ((c.tc : Thread nD τ).loc main_arg1)) := by
  unfold R6; read_piece; exact R5_src m c
theorem R6_dst : R6 m c (Proc.devRef .tc main_v6) = Cert.Gcn.dst (m ((c.tc : Thread nD τ).loc main_arg1)) := by
  unfold R6; read_piece; exact R5_dst m c
theorem R6_w : R6 m c (Proc.devRef .tc main_v29) = Cert.Gcn.edgeW (m ((c.tc : Thread nD τ).loc main_arg1)) := by
  unfold R6; read_piece; exact R5_w m c
theorem R6_b2 : R6 m c (Proc.devRef .tc main_arg5) = m ((c.tc : Thread nD τ).loc main_arg5) := by
  unfold R6; read_piece; exact R5_b2 m c

/-! ## The second propagate -/

set_option maxHeartbeats 4000000 in
/-- After the second propagate: the aggregated 10-column logits. -/
theorem agg2 : R7 m c (Proc.devRef .tc main_v61)
    = Cert.Gcn.prop10 (Cert.Gcn.src (m ((c.tc : Thread nD τ).loc main_arg1))) (Cert.Gcn.dst (m ((c.tc : Thread nD τ).loc main_arg1)))
        (Cert.Gcn.edgeW (m ((c.tc : Thread nD τ).loc main_arg1))) (R6 m c (Proc.devRef .tc main_v48)) := by
  unfold R7; read_piece
  rw [R6_w, R6_src, R6_dst]
  generalize R6 m c (Proc.devRef .tc main_v48) = X
  rfl

theorem R7_b2 : R7 m c (Proc.devRef .tc main_arg5) = m ((c.tc : Thread nD τ).loc main_arg5) := by
  unfold R7; read_piece; exact R6_b2 m c

/-! ## Bias and log-softmax -/

/-- The host's log-softmax at an entry, for ANY matrix `H` whose row `p` is `zr`: the row maximum by a fold of max
    from -inf (and one more max with -inf, which changes nothing), the row sum of exponentials from zero. -/
theorem host_lsm_entry (H : FVec Ideal S100000x10 .f32) (p : Fin 100000) (q : Fin 10) (zr : Fin 10 → EReal)
    (hH : ∀ k, H (ix2 p k) = zr k)
    (hred : S100000x10.ReducesTo [1] S100000) (hu : 0 < S_.numel)
    (hb0 : S_.BroadcastsInDim S100000 ![]) (hb1 : S100000.BroadcastsInDim S100000x1 ![0]) (hb2 : S100000x1.BroadcastsInDim S100000x10 ![0, 1]) :
    (subf (F := Ideal) (φ := .f32)
      (subf (F := Ideal) (φ := .f32) H (broadcastInDim S100000x10 ![0, 1] hb2 (broadcastInDim S100000x1 ![0] hb1
        (maximumf (F := Ideal) (φ := .f32) (broadcastInDim S100000 ![] hb0 (constant (F := Ideal) S_ .f32 0xFF800000#32))
          (Host.reduce (FloatOps.maximumf (F := Ideal) (φ := .f32)) H (constant (F := Ideal) S_ .f32 0xFF800000#32) hred hu)))))
      (broadcastInDim S100000x10 ![0, 1] hb2 (Host.log (F := Ideal) (φ := .f32) (broadcastInDim S100000x1 ![0] hb1
        (Host.reduceAdd (F := Ideal) (φ := .f32)
          (Host.exp (F := Ideal) (φ := .f32) (subf (F := Ideal) (φ := .f32) H (broadcastInDim S100000x10 ![0, 1] hb2 (broadcastInDim S100000x1 ![0] hb1
            (maximumf (F := Ideal) (φ := .f32) (broadcastInDim S100000 ![] hb0 (constant (F := Ideal) S_ .f32 0xFF800000#32))
              (Host.reduce (FloatOps.maximumf (F := Ideal) (φ := .f32)) H (constant (F := Ideal) S_ .f32 0xFF800000#32) hred hu))))))
          (constant (F := Ideal) S_ .f32 0x00000000#32) hred hu)))) : FVec Ideal S100000x10 .f32) (ix2 p q)
      = logSoftmax zr q := by
  have hrow : (fun k : Fin 10 => (H (ix2 p k) : EReal)) = zr := funext hH
  have hM : ∀ k : Fin 10, broadcastInDim S100000x10 ![0, 1] hb2 (broadcastInDim S100000x1 ![0] hb1
        (maximumf (F := Ideal) (φ := .f32) (broadcastInDim S100000 ![] hb0 (constant (F := Ideal) S_ .f32 0xFF800000#32))
          (Host.reduce (FloatOps.maximumf (F := Ideal) (φ := .f32)) H (constant (F := Ideal) S_ .f32 0xFF800000#32) hred hu))) (ix2 p k)
      = rowMax zr := fun k => by
    rw [Cert.HostRead.col_cols_apply, Cert.HostRead.vec_col_apply]
    refine Cert.HostRead.maxWord_apply _ hb0 p _ ?_
    rw [Cert.HostRead.reduceMax_row_apply, hrow]
    rfl
  rw [Cert.HostRead.subf_apply, Cert.HostRead.subf_apply, hM, Cert.HostRead.col_cols_apply, Cert.HostRead.hostLog_apply,
    Cert.HostRead.vec_col_apply, Cert.HostRead.reduceAdd_row_zero_apply, hH]
  unfold logSoftmax
  refine congrArg (fun s => (zr q - rowMax zr) - Ideal.log s) (Finset.sum_congr rfl fun k _ => ?_)
  show Ideal.exp (H (ix2 p k) - broadcastInDim S100000x10 ![0, 1] hb2 (broadcastInDim S100000x1 ![0] hb1
        (maximumf (F := Ideal) (φ := .f32) (broadcastInDim S100000 ![] hb0 (constant (F := Ideal) S_ .f32 0xFF800000#32))
          (Host.reduce (FloatOps.maximumf (F := Ideal) (φ := .f32)) H (constant (F := Ideal) S_ .f32 0xFF800000#32) hred hu))) (ix2 p k)) = _
  rw [hM, hH]

/-- The biased logits' row, entry by entry. -/
theorem biased_row (agg : FVec Ideal S100000x10 .f32) (b : FVec Ideal S10 .f32)
    (h1 : S10.BroadcastsInDim S1x10 ![1]) (h2 : S1x10.BroadcastsInDim S100000x10 ![0, 1]) (p : Fin 100000) (k : Fin 10) :
    (addf (F := Ideal) (φ := .f32) agg (broadcastInDim S100000x10 ![0, 1] h2 (broadcastInDim S1x10 ![1] h1 b)) : FVec Ideal S100000x10 .f32) (ix2 p k)
      = agg (ix2 p k) + b (ix1 k) := by
  show agg (ix2 p k) + broadcastInDim S100000x10 ![0, 1] h2 (broadcastInDim S1x10 ![1] h1 b) (ix2 p k) = _
  rw [Cert.HostRead.row_rows_apply, Cert.HostRead.vec_row_apply]

end Cert.ReferenceIdeal.Chain

end
-- ==== Proof.RefHidden.lean ====
/-
  The reference after bias, relu and ·W2, at an entry: Σ_k max(agg1(p, k) + b1 k, 0)·W2(k, q). The relu is a
  module-local function, whose typed references put contents into a buffer's type and read them back out unchanged.
-/
import proofs.«116953_j52304111730991_1_alg».proof.Proof.RefChain

set_option maxRecDepth 16384

noncomputable section

open scoped BigOperators

namespace Cert.ReferenceIdeal.Chain

open Cert.ReferenceIdeal Cert.ReferenceIdeal.Value Cert.ReferenceIdeal.Fold Cert.SoftmaxRow
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

set_option maxHeartbeats 4000000 in
/-- After bias, relu and ·W2, at an entry. -/
theorem lin2_entry (p : Fin 100000) (q : Fin 10) :
    lin2A m c (ix2 p q)
      = ∑ k : Fin 20, max (agg1A m c (ix2 p k) + b1A m c (ix1 k)) (Ideal.ofBits .f32 0x00000000#32) * w2A m c (ix2 k q) := by
  unfold lin2A agg1A b1A w2A R6; read_piece
  rw [R5_b1, R5_w2]
  generalize R5 m c (Proc.devRef .tc main_v43) = A
  repeat rw [ofBuf_toBuf]
  rw [relu_out, relu_in]
  rw [host_hw_entry A (m ((c.tc : Thread nD τ).loc main_arg3)) (m ((c.tc : Thread nD τ).loc main_arg4))
    Cert.ReferenceIdeal.Facts₀.bcast_S20_S1x20_1 Cert.ReferenceIdeal.Facts₀.bcast_S1x20_S100000x20_0_1 Cert.ReferenceIdeal.Facts₀.bcast_S_S100000x20 p q]

end Cert.ReferenceIdeal.Chain

end
-- ==== Proof.RefOut.lean ====
/-
  The reference's result at an entry: the log-softmax of row p of agg2 + b2. The log-softmax is a module-local
  function, whose typed references put contents into a buffer's type and read them back out unchanged.
-/
import proofs.«116953_j52304111730991_1_alg».proof.Proof.RefChain

set_option maxRecDepth 16384

noncomputable section

open scoped BigOperators

namespace Cert.ReferenceIdeal.Chain

open Cert.ReferenceIdeal Cert.ReferenceIdeal.Value Cert.ReferenceIdeal.Fold Cert.SoftmaxRow
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

set_option maxHeartbeats 4000000 in
/-- The run's result at an entry: the log-softmax of the biased row of the aggregated logits. -/
theorem out_entry (p : Fin 100000) (q : Fin 10) :
    outA m c (ix2 p q) = logSoftmax (fun k => agg2A m c (ix2 p k) + b2A m c (ix1 k)) q := by
  unfold outA agg2A b2A R8; read_piece
  rw [R7_b2]
  generalize R7 m c (Proc.devRef .tc main_v61) = A
  repeat rw [ofBuf_toBuf]
  rw [lsm_out, lsm_in]
  rw [host_lsm_entry
    (addf (F := Ideal) (φ := .f32) A (broadcastInDim S100000x10 ![0, 1] Cert.ReferenceIdeal.Facts₀.bcast_S1x10_S100000x10_0_1
      (broadcastInDim S1x10 ![1] Cert.ReferenceIdeal.Facts₀.bcast_S10_S1x10_1 (m ((c.tc : Thread nD τ).loc main_arg5)))))
    p q _
    (fun k => biased_row A (m ((c.tc : Thread nD τ).loc main_arg5)) Cert.ReferenceIdeal.Facts₀.bcast_S10_S1x10_1 Cert.ReferenceIdeal.Facts₀.bcast_S1x10_S100000x10_0_1 p k)
    Cert.ReferenceIdeal.Facts₀.reducesTo_S100000x10_S100000_d1 Cert.ReferenceIdeal.Facts₀.h_S_
    Cert.ReferenceIdeal.Facts₀.bcast_S_S100000 Cert.ReferenceIdeal.Facts₀.bcast_S100000_S100000x1_0 Cert.ReferenceIdeal.Facts₀.bcast_S100000x1_S100000x10_0_1]

end Cert.ReferenceIdeal.Chain

end
-- ==== Proof.Bridge.lean ====
/-
  The two runs end at the same array.

  From memories that agree on the six arguments, the idealized kernel's result buffer and the idealized reference's
  hold the same extended reals, entry by entry. The two programs apply the same host operations to the edge array
  (the graph side) and the same propagate twice; between them the kernel has three tiled regions where the reference
  has host operations, and at the ideal values each pair is one function:

    x·W1                       a tiled product into zero      against the host's matrix product: the same sum;
    relu(agg1 + b1)·W2         the bias as a reshaped row     against the bias broadcast twice: the same entries;
    log-softmax(agg2 + b2)     lane max / lane sum            against the host's reductions (and one more max with
                                                              -inf, the least extended real): the same row function.

  No step uses that the inputs are finite: no sum is reordered and nothing is cancelled.
-/
import proofs.«116953_j52304111730991_1_alg».proof.Proof.KernelChain
import proofs.«116953_j52304111730991_1_alg».proof.Proof.RefHidden
import proofs.«116953_j52304111730991_1_alg».proof.Proof.RefOut

set_option maxRecDepth 16384

noncomputable section

open scoped BigOperators

namespace Cert.Bridge

open Idealize.ShloMosaic Idealize.ShloMosaic.TcCoe Idealize.ShloMosaic.ValueIdx Idealize.SL.Sem Idealize.ShloMosaic.StableHlo
open Cert.SoftmaxRow

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)
variable (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
variable (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
variable (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
variable (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
variable (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
variable (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))

include h0 h2 in
/-- x·W1: the tiled product is the host's matrix product. -/
theorem lin1_eq : Cert.KernelIdeal.Linear1.xw (m ((c.tc : Thread Cert.KernelIdeal.nD Cert.KernelIdeal.τ).loc Cert.KernelIdeal.main_arg0)) (m ((c.tc : Thread Cert.KernelIdeal.nD Cert.KernelIdeal.τ).loc Cert.KernelIdeal.main_arg2))
    = Cert.ReferenceIdeal.Fold.R4 m' c (Proc.devRef .tc Cert.ReferenceIdeal.main_v30) := by
  funext i
  obtain ⟨p, q, rfl⟩ : ∃ (p : Fin 100000) (q : Fin 20), i = ix2 p q := ⟨i 0, i 1, eq_ix2 i⟩
  refine Eq.trans (α := EReal) ?_ (Cert.ReferenceIdeal.Chain.lin1_entry m' c p q).symm
  dsimp only [Cert.ReferenceIdeal.Chain.xA, Cert.ReferenceIdeal.Chain.w1A]
  rw [h0, h2]
  rfl

include h0 h1 h2 in
/-- The aggregated 20-column features agree. -/
theorem agg1_eq : Cert.KernelIdeal.Gen.W5 m ρ c (Proc.devRef .tc Cert.KernelIdeal.main_v43)
    = Cert.ReferenceIdeal.Fold.R5 m' c (Proc.devRef .tc Cert.ReferenceIdeal.main_v43) := by
  rw [Cert.KernelIdeal.Chain.agg1, Cert.ReferenceIdeal.Chain.agg1, h1]
  exact congrArg (Cert.Gcn.prop20 _ _ _) (lin1_eq m m' c h0 h2)

include h0 h1 h2 h3 h4 in
/-- relu(agg1 + b1)·W2: the bias as a reshaped row loaded once, against the bias broadcast down the rows. -/
theorem lin2_eq : Cert.KernelIdeal.Gen.W6 m ρ c (Proc.devRef .tc Cert.KernelIdeal.main_v45)
    = Cert.ReferenceIdeal.Fold.R6 m' c (Proc.devRef .tc Cert.ReferenceIdeal.main_v48) := by
  funext i
  obtain ⟨p, q, rfl⟩ : ∃ (p : Fin 100000) (q : Fin 10), i = ix2 p q := ⟨i 0, i 1, eq_ix2 i⟩
  refine Eq.trans (α := EReal) ?_ (Cert.ReferenceIdeal.Chain.lin2_entry m' c p q).symm
  dsimp only [Cert.ReferenceIdeal.Chain.agg1A, Cert.ReferenceIdeal.Chain.b1A, Cert.ReferenceIdeal.Chain.w2A]
  rw [Cert.KernelIdeal.Chain.lin2, ← agg1_eq m ρ m' c h0 h1 h2, h3, h4]
  unfold Cert.KernelIdeal.Linear2.hw
  refine Finset.sum_congr rfl fun k _ => ?_
  show max (_ + (Cert.KernelIdeal.Gen.W5 m ρ c (Proc.devRef .tc Cert.KernelIdeal.main_v44) : Cert.KernelIdeal.S1x20.Idx → EReal) (ix2 (0 : Fin 1) k)) _ * _ = _
  rw [Cert.KernelIdeal.Chain.b1row]
  first | done | rfl

include h0 h1 h2 h3 h4 in
/-- The aggregated 10-column logits agree. -/
theorem agg2_eq : Cert.KernelIdeal.Gen.W7 m ρ c (Proc.devRef .tc Cert.KernelIdeal.main_v58)
    = Cert.ReferenceIdeal.Fold.R7 m' c (Proc.devRef .tc Cert.ReferenceIdeal.main_v61) := by
  rw [Cert.KernelIdeal.Chain.agg2, Cert.ReferenceIdeal.Chain.agg2, h1]
  exact congrArg (Cert.Gcn.prop10 _ _ _) (lin2_eq m ρ m' c h0 h1 h2 h3 h4)

include h0 h1 h2 h3 h4 h5 in
/-- The result buffers agree: the row-wise log-softmax of the biased logits on both sides. -/
theorem result_eq : Cert.KernelIdeal.Gen.W8 m ρ c (Proc.devRef .tc Cert.KernelIdeal.main_v60)
    = Cert.ReferenceIdeal.Value.res_main_v65 m' c := by
  rw [Cert.ReferenceIdeal.Fold.res_eq]
  funext i
  obtain ⟨p, q, rfl⟩ : ∃ (p : Fin 100000) (q : Fin 10), i = ix2 p q := ⟨i 0, i 1, eq_ix2 i⟩
  refine Eq.trans (α := EReal) ?_ (Cert.ReferenceIdeal.Chain.out_entry m' c p q).symm
  dsimp only [Cert.ReferenceIdeal.Chain.agg2A, Cert.ReferenceIdeal.Chain.b2A]
  rw [Cert.KernelIdeal.Chain.out, ← agg2_eq m ρ m' c h0 h1 h2 h3 h4, h5]
  unfold Cert.KernelIdeal.RowLogSoftmax.lsm
  refine congrArg (fun z => logSoftmax z q) (funext fun k => ?_)
  show _ + (Cert.KernelIdeal.Gen.W7 m ρ c (Proc.devRef .tc Cert.KernelIdeal.main_v59) : Cert.KernelIdeal.S1x10.Idx → EReal) (ix2 (0 : Fin 1) k) = _
  rw [Cert.KernelIdeal.Chain.b2row]
  first | done | rfl

end Cert.Bridge

end
-- ==== Proof.lean ====
/-
  A two-layer graph convolution (GCN) on 100000 nodes and 3200000 edges, as three tiled TPU regions among host
  operations, against its plain jnp reference: equal results over the extended reals.

  Both programs compute, from node features x, an edge array e and weights W1, b1, W2, b2,

      out = log_softmax( P( relu( P(x·W1) + b1 )·W2 ) + b2 )        along each row,

  where P is the symmetric-normalised propagate over the edges plus one self-loop per node: gather the rows at the
  message sources, scale message k by deg^(-1/2)(source k)·deg^(-1/2)(target k), scatter-add to the targets. The edge
  preparation, the degrees and P are the same host operations in both programs (GcnSpec). The kernel differs in three
  places, each a region tiled over ten blocks of 10000 rows whose blocks are restrictions of one whole-array function
  (Linear1, Linear2, RowLogSoftmax): x·W1 and relu(· + b1)·W2 as products into a zero accumulator of operands rounded to
  bf16 — the rounding is the identity at the ideal values, and the product is the host's sum —, and the log-softmax with
  lane reductions where the reference reduces on the host. Reading each program's run back boundary by boundary
  (KernelPre, KernelChain; RefPre, RefChain over RefFold) and joining them (Bridge) gives the algebraic claim. Nothing
  in it needs the inputs to be finite: no sum is reordered, nothing is distributed or cancelled.

  The frames: each program's run terminates without a fault and leaves its arguments unchanged — the kernel's two by
  the launch theorem for a program of several regions over the tiles' bodies, the reference's because it is a
  straight line of host operations. The ideal pass rewrote nothing in this kernel, so `preserves` is `True`.
-/
import proofs.«116953_j52304111730991_1_alg».proof.Defs
import proofs.«116953_j52304111730991_1_alg».proof.Proof.Gen.Kernel
import proofs.«116953_j52304111730991_1_alg».proof.Proof.Gen.Kernel.Skeleton
import proofs.«116953_j52304111730991_1_alg».proof.Proof.Gen.Kernel.Launch
import proofs.«116953_j52304111730991_1_alg».proof.Proof.Gen.Kernel.Points
import proofs.«116953_j52304111730991_1_alg».proof.Proof.Gen.Kernel.Frame
import proofs.«116953_j52304111730991_1_alg».proof.Proof.Gen.KernelIdeal
import proofs.«116953_j52304111730991_1_alg».proof.Proof.Gen.KernelIdeal.Skeleton
import proofs.«116953_j52304111730991_1_alg».proof.Proof.Gen.KernelIdeal.Launch
import proofs.«116953_j52304111730991_1_alg».proof.Proof.Gen.KernelIdeal.Points
import proofs.«116953_j52304111730991_1_alg».proof.Proof.Gen.KernelIdeal.Frame
import proofs.«116953_j52304111730991_1_alg».proof.Proof.Gen.ReferenceIdeal
import proofs.«116953_j52304111730991_1_alg».proof.Proof.Gen.Pre_finite_inputs
import proofs.«116953_j52304111730991_1_alg».proof.Proof.RefRunPatched
import proofs.«116953_j52304111730991_1_alg».proof.Proof.KernelRun
import proofs.«116953_j52304111730991_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of this kernel. -/
theorem preserves : Cert.preserves_Kernel_KernelIdeal := trivial

/-- From memories agreeing on the arguments both idealized programs run, and end with the same result array: the
    kernel's result buffer at its last boundary, which is the reference's fold at its result buffer. -/
theorem algebraic : Cert.algebraic_KernelIdeal_ReferenceIdeal := by
  intro m ρ m' ρ' _ hagree
  refine ⟨fun c => Cert.KernelIdeal.Gen.W8 m ρ c (Proc.devRef .tc Cert.KernelIdeal.main_v60), Cert.KernelIdeal.Result.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  exact (Cert.Bridge.result_eq m ρ m' c a0 a1 a2 a3 a4 a5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
